-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x512 : Shape := ⟨3, ![2048, 2, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S2048x2x512 : S_.BroadcastsInDim S2048x2x512 (![] : Fin 0 → Fin S2048x2x512.rank)
  reducesTo_S2048x2x512_S_d0_1_2 : S2048x2x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S2048x2x512 .f32) (main_arg1 : FVec F S1536x512 .f32) (main_arg2 : FVec F S1536 .f32) (main_arg3 : FVec F S512x512 .f32) (main_arg4 : FVec F S512 .f32) : IVec S_ 1 :=
  let main_v0 : FVec F S2048x2x512 .f32 := Host.absf main_arg0
  let main_cst : FVec F S_ .f32 := constant S_ .f32 0x7F800000#32
  let main_v1 : FVec F S2048x2x512 .f32 := broadcastInDim S2048x2x512 ![] bcast_S_S2048x2x512 main_cst
  let main_v2 : IVec S2048x2x512 1 := cmpf .olt main_v0 main_v1
  let main_c : IVec S_ 1 := constantI S_ 1 1#1
  let main_v3 : IVec S_ 1 := (fun x v => Host.reduce IntOp.andi x v reducesTo_S2048x2x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S2048x2x512 : Shape := ⟨3, ![2048, 2, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S512x1536 : Shape := ⟨2, ![512, 1536]⟩
abbrev S4096x512 : Shape := ⟨2, ![4096, 512]⟩
abbrev S1x1536 : Shape := ⟨2, ![1, 1536]⟩
abbrev S2048x2x8x64 : Shape := ⟨4, ![2048, 2, 8, 64]⟩
abbrev S2x8x2048x64 : Shape := ⟨4, ![2, 8, 2048, 64]⟩
abbrev S2x2048x2048 : Shape := ⟨3, ![2, 2048, 2048]⟩
abbrev S1x8x256x64 : Shape := ⟨4, ![1, 8, 256, 64]⟩
abbrev S1x8x2048x64 : Shape := ⟨4, ![1, 8, 2048, 64]⟩
abbrev S1x256x2048 : Shape := ⟨3, ![1, 256, 2048]⟩
abbrev S256x2048 : Shape := ⟨2, ![256, 2048]⟩
abbrev S1x1x256x64 : Shape := ⟨4, ![1, 1, 256, 64]⟩
abbrev S256x64 : Shape := ⟨2, ![256, 64]⟩
abbrev S1x1x2048x64 : Shape := ⟨4, ![1, 1, 2048, 64]⟩
abbrev S2048x64 : Shape := ⟨2, ![2048, 64]⟩
abbrev S256 : Shape := ⟨1, ![256]⟩
abbrev S256x1 : Shape := ⟨2, ![256, 1]⟩
abbrev S1x512 : Shape := ⟨2, ![1, 512]⟩

abbrev nBuf : Space → Nat
  | .hbm => 27
  | .vmem => 26
  | .smem => 0
  | _ => 0

abbrev bufTy : (tb : Table) → Fin (tcTables nBuf tb) → BufTy
  | .hbm, ⟨0, _⟩ => ⟨S2048x2x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S512x1536, .f32⟩
  | .hbm, ⟨6, _⟩ => ⟨S4096x512, .f32⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S2048x2x512, .bf16⟩
  | .hbm, ⟨11, _⟩ => ⟨S2048x2x512, .bf16⟩
  | .hbm, ⟨12, _⟩ => ⟨S2048x2x512, .bf16⟩
  | .hbm, ⟨13, _⟩ => ⟨S2048x2x8x64, .bf16⟩
  | .hbm, ⟨14, _⟩ => ⟨S2x8x2048x64, .bf16⟩
  | .hbm, ⟨15, _⟩ => ⟨S2048x2x8x64, .bf16⟩
  | .hbm, ⟨16, _⟩ => ⟨S2x8x2048x64, .bf16⟩
  | .hbm, ⟨17, _⟩ => ⟨S2048x2x8x64, .bf16⟩
  | .hbm, ⟨18, _⟩ => ⟨S2x8x2048x64, .bf16⟩
  | .hbm, ⟨19, _⟩ => ⟨S2x8x2048x64, .bf16⟩
  | .hbm, ⟨20, _⟩ => ⟨S2x2048x2048, .f32⟩
  | .hbm, ⟨21, _⟩ => ⟨S2048x2x8x64, .bf16⟩
  | .hbm, ⟨22, _⟩ => ⟨S2048x2x512, .bf16⟩
  | .hbm, ⟨23, _⟩ => ⟨S4096x512, .bf16⟩
  | .hbm, ⟨24, _⟩ => ⟨S512x512, .f32⟩
  | .hbm, ⟨25, _⟩ => ⟨S4096x512, .f32⟩
  | .hbm, ⟨26, _⟩ => ⟨S2048x2x512, .f32⟩
  | .local _ .vmem, ⟨0, _⟩ => ⟨S512x512, .f32⟩
  | .local _ .vmem, ⟨1, _⟩ => ⟨S512x512, .f32⟩
  | .local _ .vmem, ⟨2, _⟩ => ⟨S512x1536, .f32⟩
  | .local _ .vmem, ⟨3, _⟩ => ⟨S1536, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x8x256x64, .bf16⟩
  | .local _ .vmem, ⟨11, _⟩ => ⟨S1x8x256x64, .bf16⟩
  | .local _ .vmem, ⟨12, _⟩ => ⟨S1x8x2048x64, .bf16⟩
  | .local _ .vmem, ⟨13, _⟩ => ⟨S1x8x2048x64, .bf16⟩
  | .local _ .vmem, ⟨14, _⟩ => ⟨S1x8x2048x64, .bf16⟩
  | .local _ .vmem, ⟨15, _⟩ => ⟨S1x8x2048x64, .bf16⟩
  | .local _ .vmem, ⟨16, _⟩ => ⟨S1x8x256x64, .bf16⟩
  | .local _ .vmem, ⟨17, _⟩ => ⟨S1x8x256x64, .bf16⟩
  | .local _ .vmem, ⟨18, _⟩ => ⟨S1x256x2048, .f32⟩
  | .local _ .vmem, ⟨19, _⟩ => ⟨S1x256x2048, .f32⟩
  | .local _ .vmem, ⟨20, _⟩ => ⟨S512x512, .bf16⟩
  | .local _ .vmem, ⟨21, _⟩ => ⟨S512x512, .bf16⟩
  | .local _ .vmem, ⟨22, _⟩ => ⟨S512x512, .f32⟩
  | .local _ .vmem, ⟨23, _⟩ => ⟨S512, .f32⟩
  | .local _ .vmem, ⟨24, _⟩ => ⟨S512x512, .f32⟩
  | .local _ .vmem, ⟨25, _⟩ => ⟨S512x512, .f32⟩
  | _, _ => ⟨S2048x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S1536x512_S512x1536_1_0 : S1536x512.Transposes [1, 0] S512x1536
  shapeCasts_S2048x2x512_S4096x512 : S2048x2x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  packedbf16_S512x512_S512x512_0_0 : (Rect.unit (s := S512x512) ![0, 0] S512x512.size inb_S512x512_S512x512_0_0).PackedRows (EltTy.packing .bf16)
  shapeCasts_S4096x512_S2048x2x512 : S4096x512.ShapeCasts S2048x2x512
  shapeCasts_S2048x2x512_S2048x2x8x64 : S2048x2x512.ShapeCasts S2048x2x8x64
  transposes_S2048x2x8x64_S2x8x2048x64_1_2_0_3 : S2048x2x8x64.Transposes [1, 2, 0, 3] S2x8x2048x64
  inb_S1x8x256x64_S1x1x256x64_0_0_0_0 : ∀ a, (![0, 0, 0, 0] : Fin 4 → Nat) a + S1x1x256x64.size a ≤ S1x8x256x64.size a
  h_S1x1x256x64 : 0 < S1x1x256x64.numel
  shapeCasts_S1x1x256x64_S256x64 : S1x1x256x64.ShapeCasts S256x64
  inb_S1x8x2048x64_S1x1x2048x64_0_0_0_0 : ∀ a, (![0, 0, 0, 0] : Fin 4 → Nat) a + S1x1x2048x64.size a ≤ S1x8x2048x64.size a
  h_S1x1x2048x64 : 0 < S1x1x2048x64.numel
  shapeCasts_S1x1x2048x64_S2048x64 : S1x1x2048x64.ShapeCasts S2048x64
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  packedbf16_S1x8x256x64_S1x1x256x64_0_0_0_0 : (Rect.unit (s := S1x8x256x64) ![0, 0, 0, 0] S1x1x256x64.size inb_S1x8x256x64_S1x1x256x64_0_0_0_0).PackedRows (EltTy.packing .bf16)
  inb_S1x8x256x64_S1x1x256x64_0_1_0_0 : ∀ a, (![0, 1, 0, 0] : Fin 4 → Nat) a + S1x1x256x64.size a ≤ S1x8x256x64.size a
  inb_S1x8x2048x64_S1x1x2048x64_0_1_0_0 : ∀ a, (![0, 1, 0, 0] : Fin 4 → Nat) a + S1x1x2048x64.size a ≤ S1x8x2048x64.size a
  packedbf16_S1x8x256x64_S1x1x256x64_0_1_0_0 : (Rect.unit (s := S1x8x256x64) ![0, 1, 0, 0] S1x1x256x64.size inb_S1x8x256x64_S1x1x256x64_0_1_0_0).PackedRows (EltTy.packing .bf16)
  inb_S1x8x256x64_S1x1x256x64_0_2_0_0 : ∀ a, (![0, 2, 0, 0] : Fin 4 → Nat) a + S1x1x256x64.size a ≤ S1x8x256x64.size a
  inb_S1x8x2048x64_S1x1x2048x64_0_2_0_0 : ∀ a, (![0, 2, 0, 0] : Fin 4 → Nat) a + S1x1x2048x64.size a ≤ S1x8x2048x64.size a
  packedbf16_S1x8x256x64_S1x1x256x64_0_2_0_0 : (Rect.unit (s := S1x8x256x64) ![0, 2, 0, 0] S1x1x256x64.size inb_S1x8x256x64_S1x1x256x64_0_2_0_0).PackedRows (EltTy.packing .bf16)
  inb_S1x8x256x64_S1x1x256x64_0_3_0_0 : ∀ a, (![0, 3, 0, 0] : Fin 4 → Nat) a + S1x1x256x64.size a ≤ S1x8x256x64.size a
  inb_S1x8x2048x64_S1x1x2048x64_0_3_0_0 : ∀ a, (![0, 3, 0, 0] : Fin 4 → Nat) a + S1x1x2048x64.size a ≤ S1x8x2048x64.size a
  packedbf16_S1x8x256x64_S1x1x256x64_0_3_0_0 : (Rect.unit (s := S1x8x256x64) ![0, 3, 0, 0] S1x1x256x64.size inb_S1x8x256x64_S1x1x256x64_0_3_0_0).PackedRows (EltTy.packing .bf16)
  inb_S1x8x256x64_S1x1x256x64_0_4_0_0 : ∀ a, (![0, 4, 0, 0] : Fin 4 → Nat) a + S1x1x256x64.size a ≤ S1x8x256x64.size a
  inb_S1x8x2048x64_S1x1x2048x64_0_4_0_0 : ∀ a, (![0, 4, 0, 0] : Fin 4 → Nat) a + S1x1x2048x64.size a ≤ S1x8x2048x64.size a
  packedbf16_S1x8x256x64_S1x1x256x64_0_4_0_0 : (Rect.unit (s := S1x8x256x64) ![0, 4, 0, 0] S1x1x256x64.size inb_S1x8x256x64_S1x1x256x64_0_4_0_0).PackedRows (EltTy.packing .bf16)
  inb_S1x8x256x64_S1x1x256x64_0_5_0_0 : ∀ a, (![0, 5, 0, 0] : Fin 4 → Nat) a + S1x1x256x64.size a ≤ S1x8x256x64.size a
  inb_S1x8x2048x64_S1x1x2048x64_0_5_0_0 : ∀ a, (![0, 5, 0, 0] : Fin 4 → Nat) a + S1x1x2048x64.size a ≤ S1x8x2048x64.size a
  packedbf16_S1x8x256x64_S1x1x256x64_0_5_0_0 : (Rect.unit (s := S1x8x256x64) ![0, 5, 0, 0] S1x1x256x64.size inb_S1x8x256x64_S1x1x256x64_0_5_0_0).PackedRows (EltTy.packing .bf16)
  inb_S1x8x256x64_S1x1x256x64_0_6_0_0 : ∀ a, (![0, 6, 0, 0] : Fin 4 → Nat) a + S1x1x256x64.size a ≤ S1x8x256x64.size a
  inb_S1x8x2048x64_S1x1x2048x64_0_6_0_0 : ∀ a, (![0, 6, 0, 0] : Fin 4 → Nat) a + S1x1x2048x64.size a ≤ S1x8x2048x64.size a
  packedbf16_S1x8x256x64_S1x1x256x64_0_6_0_0 : (Rect.unit (s := S1x8x256x64) ![0, 6, 0, 0] S1x1x256x64.size inb_S1x8x256x64_S1x1x256x64_0_6_0_0).PackedRows (EltTy.packing .bf16)
  inb_S1x8x256x64_S1x1x256x64_0_7_0_0 : ∀ a, (![0, 7, 0, 0] : Fin 4 → Nat) a + S1x1x256x64.size a ≤ S1x8x256x64.size a
  inb_S1x8x2048x64_S1x1x2048x64_0_7_0_0 : ∀ a, (![0, 7, 0, 0] : Fin 4 → Nat) a + S1x1x2048x64.size a ≤ S1x8x2048x64.size a
  packedbf16_S1x8x256x64_S1x1x256x64_0_7_0_0 : (Rect.unit (s := S1x8x256x64) ![0, 7, 0, 0] S1x1x256x64.size inb_S1x8x256x64_S1x1x256x64_0_7_0_0).PackedRows (EltTy.packing .bf16)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  transposes_S2x8x2048x64_S2048x2x8x64_2_0_1_3 : S2x8x2048x64.Transposes [2, 0, 1, 3] S2048x2x8x64
  shapeCasts_S2048x2x8x64_S2048x2x512 : S2048x2x8x64.ShapeCasts S2048x2x512
  transposes_S512x512_S512x512_1_0 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  dot_S512x512_S512x1536_S512x1536_1_0_0_1_n_n_wf : DotDims.WF S512x512 S512x1536 S512x1536 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .bf16 = 32 ∨ (Rect.block (s := S4096x512) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x512.size a
  hwx0_5 : ∀ i : grid0.Coords, EltTy.bits .bf16 = 32 ∨ (Rect.block (s := S4096x512) S512x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x256x64.size a ≤ S2x8x2048x64.size a
  hwx1_0 : ∀ i : grid1.Coords, EltTy.bits .bf16 = 32 ∨ (Rect.block (s := S2x8x2048x64) S1x8x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x2048x64.size a ≤ S2x8x2048x64.size a
  hwx1_1 : ∀ i : grid1.Coords, EltTy.bits .bf16 = 32 ∨ (Rect.block (s := S2x8x2048x64) S1x8x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x2048x64.size a ≤ S2x8x2048x64.size a
  hwx1_2 : ∀ i : grid1.Coords, EltTy.bits .bf16 = 32 ∨ (Rect.block (s := S2x8x2048x64) S1x8x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x256x64.size a ≤ S2x8x2048x64.size a
  hwx1_3 : ∀ i : grid1.Coords, EltTy.bits .bf16 = 32 ∨ (Rect.block (s := S2x8x2048x64) S1x8x256x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S2x2048x2048.size a
  hwx1_4 : ∀ i : grid1.Coords, EltTy.bits .f32 = 32 ∨ (Rect.block (s := S2x2048x2048) S1x256x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .bf16 = 32 ∨ (Rect.block (s := S4096x512) S512x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x512.size a
  hwx2_3 : ∀ i : grid2.Coords, EltTy.bits .f32 = 32 ∨ (Rect.block (s := S4096x512) S512x512.size (cc2_transform_3 i) (hinb2_3 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S1x8x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x8x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x8x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12_0) S1x8x256x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_1) S1x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x2x512 : Shape := ⟨3, ![2048, 2, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S2048x2x1536 : Shape := ⟨3, ![2048, 2, 1536]⟩
abbrev S1x1x1536 : Shape := ⟨3, ![1, 1, 1536]⟩
abbrev S_ : Shape := ⟨0, ![]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S16x2048 : Shape := ⟨2, ![16, 2048]⟩
abbrev S16x2048x1 : Shape := ⟨3, ![16, 2048, 1]⟩
abbrev S1x1x512 : Shape := ⟨3, ![1, 1, 512]⟩
abbrev S2x8x2048x2048 : Shape := ⟨4, ![2, 8, 2048, 2048]⟩
abbrev S2x2048x2048 : Shape := ⟨3, ![2, 2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x2x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S2048x2x1536, .f32⟩
  | .hbm, ⟨6, _⟩ => ⟨S1x1x1536, .f32⟩
  | .hbm, ⟨7, _⟩ => ⟨S2048x2x1536, .f32⟩
  | .hbm, ⟨8, _⟩ => ⟨S2048x2x1536, .f32⟩
  | .hbm, ⟨9, _⟩ => ⟨S2048x2x512, .f32⟩
  | .hbm, ⟨10, _⟩ => ⟨S2048x2x512, .f32⟩
  | .hbm, ⟨11, _⟩ => ⟨S2048x2x512, .f32⟩
  | .hbm, ⟨12, _⟩ => ⟨S_, .f32⟩
  | .hbm, ⟨13, _⟩ => ⟨S2048x2x512, .f32⟩
  | .hbm, ⟨14, _⟩ => ⟨S2048x2x512, .f32⟩
  | .hbm, ⟨15, _⟩ => ⟨S2048x16x64, .f32⟩
  | .hbm, ⟨16, _⟩ => ⟨S16x2048x64, .f32⟩
  | .hbm, ⟨17, _⟩ => ⟨S2048x16x64, .f32⟩
  | .hbm, ⟨18, _⟩ => ⟨S16x2048x64, .f32⟩
  | .hbm, ⟨19, _⟩ => ⟨S2048x16x64, .f32⟩
  | .hbm, ⟨20, _⟩ => ⟨S16x2048x64, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S_, .f32⟩
  | .hbm, ⟨25, _⟩ => ⟨S16x2048, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S16x2048x64, .f32⟩
  | .hbm, ⟨37, _⟩ => ⟨S2048x16x64, .f32⟩
  | .hbm, ⟨38, _⟩ => ⟨S2048x2x512, .f32⟩
  | .hbm, ⟨39, _⟩ => ⟨S2048x2x512, .f32⟩
  | .hbm, ⟨40, _⟩ => ⟨S1x1x512, .f32⟩
  | .hbm, ⟨41, _⟩ => ⟨S2048x2x512, .f32⟩
  | .hbm, ⟨42, _⟩ => ⟨S2048x2x512, .f32⟩
  | .hbm, ⟨43, _⟩ => ⟨S2x8x2048x2048, .f32⟩
  | .hbm, ⟨44, _⟩ => ⟨S_, .f32⟩
  | .hbm, ⟨45, _⟩ => ⟨S2x2048x2048, .f32⟩
  | .hbm, ⟨46, _⟩ => ⟨S_, .f32⟩
  | .hbm, ⟨47, _⟩ => ⟨S2x2048x2048, .f32⟩
  | .hbm, ⟨48, _⟩ => ⟨S2x2048x2048, .f32⟩
  | _, _ => ⟨S2048x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S2048x2x1536_0_1_2 : S1x1x1536.BroadcastsInDim S2048x2x1536 (![0, 1, 2] : Fin 3 → Fin S2048x2x1536.rank)
  slices_S2048x2x1536_S2048x2x512_0_0_0 : S2048x2x1536.Slices ![0, 0, 0] S2048x2x512
  slices_S2048x2x1536_S2048x2x512_0_0_512 : S2048x2x1536.Slices ![0, 0, 512] S2048x2x512
  slices_S2048x2x1536_S2048x2x512_0_0_1024 : S2048x2x1536.Slices ![0, 0, 1024] S2048x2x512
  bcast_S_S2048x2x512 : S_.BroadcastsInDim S2048x2x512 (![] : Fin 0 → Fin S2048x2x512.rank)
  shapeCasts_S2048x2x512_S2048x16x64 : S2048x2x512.ShapeCasts S2048x16x64
  transposes_S2048x16x64_S16x2048x64_1_0_2 : S2048x16x64.Transposes [1, 0, 2] S16x2048x64
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x2x512 : S2048x16x64.ShapeCasts S2048x2x512
  bcast_S512_S1x1x512_2 : S512.BroadcastsInDim S1x1x512 (![2] : Fin 1 → Fin S1x1x512.rank)
  bcast_S1x1x512_S2048x2x512_0_1_2 : S1x1x512.BroadcastsInDim S2048x2x512 (![0, 1, 2] : Fin 3 → Fin S2048x2x512.rank)
  shapeCasts_S16x2048x2048_S2x8x2048x2048 : S16x2048x2048.ShapeCasts S2x8x2048x2048
  reducesTo_S2x8x2048x2048_S2x2048x2048_d1 : S2x8x2048x2048.ReducesTo [1] S2x2048x2048
  bcast_S_S2x2048x2048 : S_.BroadcastsInDim S2x2048x2048 (![] : Fin 0 → Fin S2x2048x2048.rank)
  dot_S2048x2x512_S1536x512_S2048x2x1536_2_1_01_0_n_n_wf : DotDims.WF S2048x2x512 S1536x512 S2048x2x1536 [2] [1] [0, 1] [0] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]
  dot_S2048x2x512_S512x512_S2048x2x512_2_1_01_0_n_n_wf : DotDims.WF S2048x2x512 S512x512 S2048x2x512 [2] [1] [0, 1] [0] [] []

variable [Facts₀]

def dot_S2048x2x512_S1536x512_S2048x2x1536_2_1_01_0_n_n : DotDims S2048x2x512 S1536x512 S2048x2x1536 where
  lhsContracting := [2]
  rhsContracting := [1]
  lhsNonContracting := [0, 1]
  rhsNonContracting := [0]
  lhsBatch := []
  rhsBatch := []
  wf := dot_S2048x2x512_S1536x512_S2048x2x1536_2_1_01_0_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf
def dot_S2048x2x512_S512x512_S2048x2x512_2_1_01_0_n_n : DotDims S2048x2x512 S512x512 S2048x2x512 where
  lhsContracting := [2]
  rhsContracting := [1]
  lhsNonContracting := [0, 1]
  rhsNonContracting := [0]
  lhsBatch := []
  rhsBatch := []
  wf := dot_S2048x2x512_S512x512_S2048x2x512_2_1_01_0_n_n_wf

class Facts : Prop extends Facts₀ where

variable [Facts]
-- ==== Proof.KRun.lean ====
/- The run of @main on the TensorCores: every weakly fair execution terminates, and the final state holds, at the
   two result buffers `main_v18` and `main_v12_1`, the last boundary's contents `W7`, and at the five argument
   arrays the launch contents. -/
import proofs.«164037_j40080634806734_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main on the TensorCores from the memory `m` with zero counters terminates,
    and in every final state the two result buffers hold the last boundary's contents `W7` and the five argument
    arrays are as launched. -/
theorem run_values : θ_run defs (onTc (τ := τ) (main (F := F))) ⟨m, fun _ => 0, ρ⟩ (fun r => ∀ c : Dev nD,
      r.2.mem ((c.tc : Thread nD τ).loc main_v18) = W7 m ρ c (Proc.devRef .tc main_v18)
      ∧ r.2.mem ((c.tc : Thread nD τ).loc main_v12_1) = W7 m ρ c (Proc.devRef .tc main_v12_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v18 (by decide)),
       h c _ (mem_uc main_v12_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Bridge

end
-- ==== Proof.HostChain.lean ====
/- What the host operations between the three regions do to the arrays, index by index: each region's entry
   arrays in terms of the launch memory or of the previous region's exit arrays, and the two results in terms of the
   last two regions' exit arrays. Every host operation here is a reshape or a transpose, so every fact is a
   re-indexing: a reshape reads the operand at the index with the same row-major position, a transpose at the
   permuted index. -/
import proofs.«164037_j40080634806734_2_alg».proof.Proof.Gen.KernelIdeal.Frame
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.StableHlo

/-! ## The layout operations read at an index (any element type) -/

section Layout
variable {α : Type}

/-- [2048,2,512] → [4096,512]: row `r` of the result is row `(r / 2, r % 2)` of the operand. -/
theorem rows_merge_apply (x : S2048x2x512.Idx → α) (h : S2048x2x512.ShapeCasts S4096x512) (i : S4096x512.Idx) :
    shapeCast S4096x512 x h i
      = x (ix3 ⟨(i 0).val / 2, by have h0 : (i 0).val < 4096 := (i 0).isLt; omega⟩ ⟨(i 0).val % 2, by omega⟩ (i 1)) :=
  shapeCast_apply x h i _ (by
    rewrite [Shape.rowMajor_val_three, Shape.rowMajor_val_two]
    have h0 : (i 0).val < 4096 := (i 0).isLt
    have h1 : (i 1).val < 512 := (i 1).isLt
    show ((i 0).val / 2 * 2 + (i 0).val % 2) * 512 + (i 1).val = (i 0).val * 512 + (i 1).val
    omega)

/-- [4096,512] → [2048,2,512]: entry `(s, b, e)` of the result is entry `(2 s + b, e)` of the operand. -/
theorem rows_split_apply (x : S4096x512.Idx → α) (h : S4096x512.ShapeCasts S2048x2x512) (i : S2048x2x512.Idx) :
    shapeCast S2048x2x512 x h i
      = x (ix2 ⟨2 * (i 0).val + (i 1).val, by
            have h0 : (i 0).val < 2048 := (i 0).isLt; have h1 : (i 1).val < 2 := (i 1).isLt; omega⟩ (i 2)) :=
  shapeCast_apply x h i _ (by
    rewrite [Shape.rowMajor_val_two, Shape.rowMajor_val_three]
    have h0 : (i 0).val < 2048 := (i 0).isLt
    have h1 : (i 1).val < 2 := (i 1).isLt
    have h2 : (i 2).val < 512 := (i 2).isLt
    show (2 * (i 0).val + (i 1).val) * 512 + (i 2).val = ((i 0).val * 2 + (i 1).val) * 512 + (i 2).val
    omega)

/-- The transpose of a matrix (either shape below) reads the operand at the swapped index. -/
theorem transpose_1536x512_apply (x : S1536x512.Idx → α) (h : S1536x512.Transposes [1, 0] S512x1536) (i : S512x1536.Idx) :
    transpose S512x1536 [1, 0] x h i = x (ix2 (i 1) (i 0)) :=
  transpose_apply [1, 0] x h i (ix2 (i 1) (i 0)) (fun b => match b with
    | ⟨0, _⟩ => rfl
    | ⟨1, _⟩ => rfl)

theorem transpose_512x512_apply (x : S512x512.Idx → α) (h : S512x512.Transposes [1, 0] S512x512) (i : S512x512.Idx) :
    transpose S512x512 [1, 0] x h i = x (ix2 (i 1) (i 0)) :=
  transpose_apply [1, 0] x h i (ix2 (i 1) (i 0)) (fun b => match b with
    | ⟨0, _⟩ => rfl
    | ⟨1, _⟩ => rfl)

/-- [4096,512] → [2048,2,512] → [2048,2,8,64] → transpose [1,2,0,3] → [2,8,2048,64]: entry `(b, h, s, d)` of the
    result is entry `(2 s + b, 64 h + d)` of the operand. -/
theorem heads_split_apply (x : S4096x512.Idx → α) (h1 : S4096x512.ShapeCasts S2048x2x512)
    (h2 : S2048x2x512.ShapeCasts S2048x2x8x64) (h3 : S2048x2x8x64.Transposes [1, 2, 0, 3] S2x8x2048x64)
    (i : S2x8x2048x64.Idx) :
    transpose S2x8x2048x64 [1, 2, 0, 3] (shapeCast S2048x2x8x64 (shapeCast S2048x2x512 x h1) h2) h3 i
      = x (ix2 ⟨2 * (i 2).val + (i 0).val, by
              have h0 : (i 0).val < 2 := (i 0).isLt; have h2 : (i 2).val < 2048 := (i 2).isLt; omega⟩
            ⟨64 * (i 1).val + (i 3).val, by
              have h1 : (i 1).val < 8 := (i 1).isLt; have h3 : (i 3).val < 64 := (i 3).isLt; omega⟩) := by
  have b0 : (i 0).val < 2 := (i 0).isLt
  have b1 : (i 1).val < 8 := (i 1).isLt
  have b2 : (i 2).val < 2048 := (i 2).isLt
  have b3 : (i 3).val < 64 := (i 3).isLt
  rw [transpose_apply [1, 2, 0, 3] _ h3 i (ix4 (i 2) (i 0) (i 1) (i 3)) (fun b => match b with
    | ⟨0, _⟩ => rfl
    | ⟨1, _⟩ => rfl
    | ⟨2, _⟩ => rfl
    | ⟨3, _⟩ => rfl)]
  rw [shapeCast_apply _ h2 (ix4 (i 2) (i 0) (i 1) (i 3))
    (ix3 (i 2) (i 0) (⟨64 * (i 1).val + (i 3).val, by omega⟩ : Fin 512)) (by
      rewrite [Shape.rowMajor_val_three, Shape.rowMajor_val_four]
      show ((i 2).val * 2 + (i 0).val) * 512 + (64 * (i 1).val + (i 3).val)
        = (((i 2).val * 2 + (i 0).val) * 8 + (i 1).val) * 64 + (i 3).val
      omega)]
  exact shapeCast_apply x h1 _ _ (by
      rewrite [Shape.rowMajor_val_two, Shape.rowMajor_val_three]
      show (2 * (i 2).val + (i 0).val) * 512 + (64 * (i 1).val + (i 3).val)
        = ((i 2).val * 2 + (i 0).val) * 512 + (64 * (i 1).val + (i 3).val)
      omega)

/-- [2,8,2048,64] → transpose [2,0,1,3] → [2048,2,8,64] → [2048,2,512] → [4096,512]: entry `(r, e)` of the result is
    entry `(r % 2, e / 64, r / 2, e % 64)` of the operand. -/
theorem heads_merge_apply (x : S2x8x2048x64.Idx → α) (h1 : S2x8x2048x64.Transposes [2, 0, 1, 3] S2048x2x8x64)
    (h2 : S2048x2x8x64.ShapeCasts S2048x2x512) (h3 : S2048x2x512.ShapeCasts S4096x512)
    (i : S4096x512.Idx) :
    shapeCast S4096x512 (shapeCast S2048x2x512 (transpose S2048x2x8x64 [2, 0, 1, 3] x h1) h2) h3 i
      = x (ix4 ⟨(i 0).val % 2, by omega⟩
            ⟨(i 1).val / 64, by have h1 : (i 1).val < 512 := (i 1).isLt; omega⟩
            ⟨(i 0).val / 2, by have h0 : (i 0).val < 4096 := (i 0).isLt; omega⟩
            ⟨(i 1).val % 64, by omega⟩) := by
  have b0 : (i 0).val < 4096 := (i 0).isLt
  have b1 : (i 1).val < 512 := (i 1).isLt
  rw [rows_merge_apply _ h3 i]
  rw [shapeCast_apply _ h2 (ix3 (⟨(i 0).val / 2, by omega⟩ : Fin 2048) (⟨(i 0).val % 2, by omega⟩ : Fin 2) (i 1))
    (ix4 (⟨(i 0).val / 2, by omega⟩ : Fin 2048) (⟨(i 0).val % 2, by omega⟩ : Fin 2)
      (⟨(i 1).val / 64, by omega⟩ : Fin 8) (⟨(i 1).val % 64, by omega⟩ : Fin 64)) (by
      rewrite [Shape.rowMajor_val_four, Shape.rowMajor_val_three]
      show ((((i 0).val / 2) * 2 + (i 0).val % 2) * 8 + (i 1).val / 64) * 64 + (i 1).val % 64
        = (((i 0).val / 2) * 2 + (i 0).val % 2) * 512 + (i 1).val
      omega)]
  exact transpose_apply [2, 0, 1, 3] x h1 _ _ (fun b => match b with
    | ⟨0, _⟩ => rfl
    | ⟨1, _⟩ => rfl
    | ⟨2, _⟩ => rfl
    | ⟨3, _⟩ => rfl)

end Layout

variable {F : FTy → Type} [FloatOps F]
variable (m : (ℓ : Loc nD τ sig) → Buf (Elt F) ℓ) (ρ : Dev nD → PrngReg)

/-! ## The argument arrays through the run: nothing writes an argument, so at every boundary it holds the launch
    contents -/

theorem W4_main_arg3 (c : Dev nD) : W4 m ρ c (Proc.devRef .tc main_arg3) = m ((c : Thread nD τ).loc main_arg3) := by
  rw [W4_of_ne m ρ c main_arg3 (by decide)]
  show StableHlo.after hostOps1 _ (Proc.devRef .tc main_arg3) = _
  after_results
  rw [W2_of_ne m ρ c main_arg3 (by decide)]
  show StableHlo.after hostOps0 _ (Proc.devRef .tc main_arg3) = _
  after_results

theorem W4_main_arg4 (c : Dev nD) : W4 m ρ c (Proc.devRef .tc main_arg4) = m ((c : Thread nD τ).loc main_arg4) := by
  rw [W4_of_ne m ρ c main_arg4 (by decide)]
  show StableHlo.after hostOps1 _ (Proc.devRef .tc main_arg4) = _
  after_results
  rw [W2_of_ne m ρ c main_arg4 (by decide)]
  show StableHlo.after hostOps0 _ (Proc.devRef .tc main_arg4) = _
  after_results

/-! ## Region 0's entry arrays -/

/-- The activations, [2048,2,512] merged to [4096,512]. -/
theorem entry0_x (c : Dev nD) :
    V1 m ρ c (Pipeline.arrRef spec0 0) = fun i : S4096x512.Idx => m ((c : Thread nD τ).loc main_arg0)
      (ix3 ⟨(i 0).val / 2, by have h0 : (i 0).val < 4096 := (i 0).isLt; omega⟩ ⟨(i 0).val % 2, by omega⟩ (i 1)) := by
  show StableHlo.after hostOps0 _ (Proc.devRef .tc main_v1) = _
  after_results
  funext i
  exact rows_merge_apply _ _ i

/-- The input projection's weight, transposed. -/
theorem entry0_w (c : Dev nD) :
    V1 m ρ c (Pipeline.arrRef spec0 1)
      = fun i : S512x1536.Idx => m ((c : Thread nD τ).loc main_arg1) (ix2 (i 1) (i 0)) := by
  show StableHlo.after hostOps0 _ (Proc.devRef .tc main_v0) = _
  after_results
  funext i
  exact transpose_1536x512_apply _ _ i

/-- The input projection's bias, as launched. -/
theorem entry0_b (c : Dev nD) :
    V1 m ρ c (Pipeline.arrRef spec0 2) = m ((c : Thread nD τ).loc main_arg2) := by
  show StableHlo.after hostOps0 _ (Proc.devRef .tc main_arg2) = _
  after_results

/-! ## Region 1's entry arrays: region 0's three outputs split into heads -/

theorem entry1_q (c : Dev nD) :
    V3 m ρ c (Pipeline.arrRef spec1 0) = fun i : S2x8x2048x64.Idx => (dat0 (V1 m ρ) c).arrAt 3 cfg0.N
      (ix2 ⟨2 * (i 2).val + (i 0).val, by
              have h0 : (i 0).val < 2 := (i 0).isLt; have h2 : (i 2).val < 2048 := (i 2).isLt; omega⟩
            ⟨64 * (i 1).val + (i 3).val, by
              have h1 : (i 1).val < 8 := (i 1).isLt; have h3 : (i 3).val < 64 := (i 3).isLt; omega⟩) := by
  show StableHlo.after hostOps1 _ (Proc.devRef .tc main_v7) = _
  after_results
  rw [show W2 m ρ c (Proc.devRef .tc main_v2_0) = _ from W2_arr m ρ c 3]
  funext i
  exact heads_split_apply _ _ _ _ i

theorem entry1_k (c : Dev nD) :
    V3 m ρ c (Pipeline.arrRef spec1 1) = fun i : S2x8x2048x64.Idx => (dat0 (V1 m ρ) c).arrAt 4 cfg0.N
      (ix2 ⟨2 * (i 2).val + (i 0).val, by
              have h0 : (i 0).val < 2 := (i 0).isLt; have h2 : (i 2).val < 2048 := (i 2).isLt; omega⟩
            ⟨64 * (i 1).val + (i 3).val, by
              have h1 : (i 1).val < 8 := (i 1).isLt; have h3 : (i 3).val < 64 := (i 3).isLt; omega⟩) := by
  show StableHlo.after hostOps1 _ (Proc.devRef .tc main_v9) = _
  after_results
  rw [show W2 m ρ c (Proc.devRef .tc main_v2_1) = _ from W2_arr m ρ c 4]
  funext i
  exact heads_split_apply _ _ _ _ i

theorem entry1_v (c : Dev nD) :
    V3 m ρ c (Pipeline.arrRef spec1 2) = fun i : S2x8x2048x64.Idx => (dat0 (V1 m ρ) c).arrAt 5 cfg0.N
      (ix2 ⟨2 * (i 2).val + (i 0).val, by
              have h0 : (i 0).val < 2 := (i 0).isLt; have h2 : (i 2).val < 2048 := (i 2).isLt; omega⟩
            ⟨64 * (i 1).val + (i 3).val, by
              have h1 : (i 1).val < 8 := (i 1).isLt; have h3 : (i 3).val < 64 := (i 3).isLt; omega⟩) := by
  show StableHlo.after hostOps1 _ (Proc.devRef .tc main_v11) = _
  after_results
  rw [show W2 m ρ c (Proc.devRef .tc main_v2_2) = _ from W2_arr m ρ c 5]
  funext i
  exact heads_split_apply _ _ _ _ i

/-! ## Region 2's entry arrays -/

/-- The attention output, heads merged back to [4096,512]. -/
theorem entry2_a (c : Dev nD) :
    V5 m ρ c (Pipeline.arrRef spec2 0) = fun i : S4096x512.Idx => (dat1 (V3 m ρ) c).arrAt 3 cfg1.N
      (ix4 ⟨(i 0).val % 2, by omega⟩
            ⟨(i 1).val / 64, by have h1 : (i 1).val < 512 := (i 1).isLt; omega⟩
            ⟨(i 0).val / 2, by have h0 : (i 0).val < 4096 := (i 0).isLt; omega⟩
            ⟨(i 1).val % 64, by omega⟩) := by
  show StableHlo.after hostOps2 _ (Proc.devRef .tc main_v15) = _
  after_results
  rw [show W4 m ρ c (Proc.devRef .tc main_v12_0) = _ from W4_arr m ρ c 3]
  funext i
  exact heads_merge_apply _ _ _ _ i

/-- The output projection's weight, transposed. -/
theorem entry2_w (c : Dev nD) :
    V5 m ρ c (Pipeline.arrRef spec2 1)
      = fun i : S512x512.Idx => m ((c : Thread nD τ).loc main_arg3) (ix2 (i 1) (i 0)) := by
  show StableHlo.after hostOps2 _ (Proc.devRef .tc main_v16) = _
  after_results
  rw [W4_main_arg3 m ρ c]
  funext i
  exact transpose_512x512_apply _ _ i

/-- The output projection's bias, as launched. -/
theorem entry2_b (c : Dev nD) :
    V5 m ρ c (Pipeline.arrRef spec2 2) = m ((c : Thread nD τ).loc main_arg4) := by
  show StableHlo.after hostOps2 _ (Proc.devRef .tc main_arg4) = _
  after_results
  exact W4_main_arg4 m ρ c

/-! ## The two results -/

/-- The first result: region 2's output, [4096,512] split to [2048,2,512]. -/
theorem result_out (c : Dev nD) :
    W7 m ρ c (Proc.devRef .tc main_v18) = fun i : S2048x2x512.Idx => (dat2 (V5 m ρ) c).arrAt 3 cfg2.N
      (ix2 ⟨2 * (i 0).val + (i 1).val, by
            have h0 : (i 0).val < 2048 := (i 0).isLt; have h1 : (i 1).val < 2 := (i 1).isLt; omega⟩ (i 2)) := by
  show StableHlo.after hostOps3 _ (Proc.devRef .tc main_v18) = _
  after_results
  rw [show W6 m ρ c (Proc.devRef .tc main_v17) = _ from W6_arr m ρ c 3]
  funext i
  exact rows_split_apply _ _ i

/-- The second result: region 1's second output, which no later operation writes. -/
theorem result_w (c : Dev nD) :
    W7 m ρ c (Proc.devRef .tc main_v12_1) = (dat1 (V3 m ρ) c).arrAt 4 cfg1.N := by
  show StableHlo.after hostOps3 _ (Proc.devRef .tc main_v12_1) = _
  after_results
  rw [W6_of_ne m ρ c main_v12_1 (by decide)]
  show StableHlo.after hostOps2 _ (Proc.devRef .tc main_v12_1) = _
  after_results
  exact W4_arr m ρ c 4

end Cert.KernelIdeal.Bridge

end
-- ==== Proof.Spec.lean ====
/-
  The mathematics of the three kernels, as whole-array functions over the extended reals.

  A multi-head self-attention layer over x : [2048, 2, 512] (sequence, batch, embedding), 8 heads of width 64:
    * the input projection: each row of the flattened [4096, 512] input times the transposed [512, 1536] weight,
      plus the bias, cut into three [4096, 512] arrays q, k, v, the first scaled by 1/8 (= 64^(-1/2));
    * per (batch, head): scores s·t ↦ ∑_d q(s,d) k(t,d), a softmax over t (exponentials of the scores less the row's
      maximum, divided by their sum), the heads' outputs ∑_t p(s,t) v(t,d), and the heads' mean of p;
    * the output projection: each row of the [4096, 512] head outputs times the transposed [512, 512] weight plus bias.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

abbrev A4096x512 := (⟨2, ![4096, 512]⟩ : Shape).Idx → EReal
abbrev A512x1536 := (⟨2, ![512, 1536]⟩ : Shape).Idx → EReal
abbrev A512x512 := (⟨2, ![512, 512]⟩ : Shape).Idx → EReal
abbrev A1536 := (⟨1, ![1536]⟩ : Shape).Idx → EReal
abbrev A512 := (⟨1, ![512]⟩ : Shape).Idx → EReal
abbrev AHeads := (⟨4, ![2, 8, 2048, 64]⟩ : Shape).Idx → EReal
abbrev AWeights := (⟨3, ![2, 2048, 2048]⟩ : Shape).Idx → EReal

/-- The scale 1/8 as the kernels spell it (the float32 pattern of 0.125). -/
abbrev eighth : EReal := Ideal.ofBits .f32 0x3E000000#32

/-- −∞ as the kernels spell it: the initial value of a row's maximum. -/
abbrev negInf : EReal := Ideal.ofBits .f32 0xFF800000#32

/-- Column `off + e` of the affine map: row `r` of `x` against column `off + e` of `w`, plus the bias there. -/
def projAt (off : Nat) (hoff : off + 512 ≤ 1536) (x : A4096x512) (w : A512x1536) (b : A1536) (r : Fin 4096) (e : Fin 512) : EReal :=
  (∑ k : Fin 512, x (ix2 r k) * w (ix2 k ⟨off + e.val, by have := e.isLt; omega⟩)) + b (ix1 ⟨off + e.val, by have := e.isLt; omega⟩)

/-- The queries: columns 0..511 of the affine map, scaled by 1/8. -/
def projQ (x : A4096x512) (w : A512x1536) (b : A1536) : A4096x512 := fun i => projAt 0 (by omega) x w b (i 0) (i 1) * eighth
/-- The keys: columns 512..1023. -/
def projK (x : A4096x512) (w : A512x1536) (b : A1536) : A4096x512 := fun i => projAt 512 (by omega) x w b (i 0) (i 1)
/-- The values: columns 1024..1535. -/
def projV (x : A4096x512) (w : A512x1536) (b : A1536) : A4096x512 := fun i => projAt 1024 (by omega) x w b (i 0) (i 1)

/-- The output projection: row `i 0` of `a` against column `i 1` of `w`, plus the bias. -/
def outProj (a : A4096x512) (w : A512x512) (b : A512) : A4096x512 := fun i =>
  (∑ k : Fin 512, a (ix2 (i 0) k) * w (ix2 k (i 1))) + b (ix1 (i 1))

/-- Query `s` against key `t` in head `(b, h)`. -/
def score (q k : AHeads) (b : Fin 2) (h : Fin 8) (s t : Fin 2048) : EReal := ∑ d : Fin 64, q (ix4 b h s d) * k (ix4 b h t d)
/-- The largest score of query `s`, from −∞. -/
def rowMax (q k : AHeads) (b : Fin 2) (h : Fin 8) (s : Fin 2048) : EReal :=
  (Finset.univ : Finset (Fin 2048)).fold max negInf (fun t => score q k b h s t)
/-- The exponential of a score less the row's maximum. -/
def expo (q k : AHeads) (b : Fin 2) (h : Fin 8) (s t : Fin 2048) : EReal := Ideal.exp (score q k b h s t - rowMax q k b h s)
/-- The row's sum of exponentials. -/
def denom (q k : AHeads) (b : Fin 2) (h : Fin 8) (s : Fin 2048) : EReal := ∑ t : Fin 2048, expo q k b h s t
/-- The softmax weight of key `t` for query `s`. -/
def prob (q k : AHeads) (b : Fin 2) (h : Fin 8) (s t : Fin 2048) : EReal := Ideal.div (expo q k b h s t) (denom q k b h s)

/-- Each head's output: the softmax-weighted sum of the values. -/
def attnOut (q k v : AHeads) : AHeads := fun i => ∑ t : Fin 2048, prob q k (i 0) (i 1) (i 2) t * v (ix4 (i 0) (i 1) t (i 3))

/-- The heads' weights added up from zero in the order 0, 1, …, 7, times 1/8. -/
def attnW (q k : AHeads) : AWeights := fun i =>
  ((((((((0 + prob q k (i 0) 0 (i 1) (i 2)) + prob q k (i 0) 1 (i 1) (i 2)) + prob q k (i 0) 2 (i 1) (i 2)) + prob q k (i 0) 3 (i 1) (i 2))
    + prob q k (i 0) 4 (i 1) (i 2)) + prob q k (i 0) 5 (i 1) (i 2)) + prob q k (i 0) 6 (i 1) (i 2)) + prob q k (i 0) 7 (i 1) (i 2)) * eighth

end Cert.Attn

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.Region0.lean ====
/-
  The input projection as three whole-array functions.

  The first region walks the flattened [4096, 512] input in eight blocks of 512 rows.  At each block it holds the whole
  transposed [512, 1536] weight and the [1536] bias, multiplies the block's rows by the weight from a zero accumulator,
  adds the bias to every row, and cuts the [512, 1536] result into three [512, 512] pieces at columns 0, 512 and 1024,
  the first scaled by 1/8; each piece is written to the same rows of its own output array.  Entry (r, e) of the piece
  at column offset o is therefore  ∑_k x(r, k) · w(k, o + e) + b(o + e)  (times 1/8 for o = 0): `Cert.Attn.projQ`,
  `projK`, `projV`.  The entry depends on row r of the input, column o + e of the weight and entry o + e of the bias
  only.  Over the extended reals the roundings to bf16 are the identity.
-/
import proofs.«164037_j40080634806734_2_alg».proof.Proof.Gen.KernelIdeal.Frame
import proofs.«164037_j40080634806734_2_alg».proof.Proof.Spec
import proofs.«164037_j40080634806734_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen Cert.Attn Idealize.ShloMosaic Idealize.ShloMosaic.TcCoe Idealize.SL.Sem Idealize.ShloMosaic.ValueIdx

namespace Region0

/-! ## The body's stored values at an index

The body multiplies its 512 input rows by the whole transposed [512, 1536] weight on the matrix unit, from a zero
accumulator, and adds the bias to every row: entry (p, j) of the wide result is  ∑_k x(p, k) · w(k, j) + b(j).  The
three stored values are its column ranges from 0, 512 and 1024, the first times the constant 1/8.  The matrix product
contracts axis 1 of the left operand with axis 0 of the right one. -/

/-- The left operand's row is the result's row. -/
theorem lhs_row (i : S512x1536.Idx) (k : dot_S512x512_S512x1536_S512x1536_1_0_0_1_n_n.contr.Idx) :
    (dot_S512x512_S512x1536_S512x1536_1_0_0_1_n_n.lhsIdx i k 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
/-- The left operand's column is the contraction position. -/
theorem lhs_col (i : S512x1536.Idx) (k : dot_S512x512_S512x1536_S512x1536_1_0_0_1_n_n.contr.Idx) :
    (dot_S512x512_S512x1536_S512x1536_1_0_0_1_n_n.lhsIdx i k 1).val = (k ⟨0, by decide⟩).val :=
  dot_S512x512_S512x1536_S512x1536_1_0_0_1_n_n.lhsIdx_val_of_single rfl i k
/-- The right operand's row is the contraction position. -/
theorem rhs_row (i : S512x1536.Idx) (k : dot_S512x512_S512x1536_S512x1536_1_0_0_1_n_n.contr.Idx) :
    (dot_S512x512_S512x1536_S512x1536_1_0_0_1_n_n.rhsIdx i k 0).val = (k ⟨0, by decide⟩).val :=
  dot_S512x512_S512x1536_S512x1536_1_0_0_1_n_n.rhsIdx_val_of_single rfl i k
/-- The right operand's column is the result's column. -/
theorem rhs_col (i : S512x1536.Idx) (k : dot_S512x512_S512x1536_S512x1536_1_0_0_1_n_n.contr.Idx) :
    (dot_S512x512_S512x1536_S512x1536_1_0_0_1_n_n.rhsIdx i k 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- The matrix product from a zero accumulator, at (p, j): the sum over k of a(p, k) · b(k, j). -/
theorem matmul_apply (a : FVec Ideal S512x512 .bf16) (b : FVec Ideal S512x1536 .bf16) (p : Fin 512) (j : Fin 1536) :
    matmul dot_S512x512_S512x1536_S512x1536_1_0_0_1_n_n none a b (constant S512x1536 .f32 0x00000000#32) (ix2 p j)
      = ∑ k : Fin 512, a (ix2 p k) * b (ix2 k j) := by
  show FloatOps.matmul dot_S512x512_S512x1536_S512x1536_1_0_0_1_n_n none a b (constant S512x1536 .f32 0x00000000#32) (ix2 p j) = _
  rw [Ideal.matmul_constant_zero_apply, ← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p j) ((contrEquiv1 dot_S512x512_S512x1536_S512x1536_1_0_0_1_n_n 512 rfl rfl).symm k) = ix2 p k := funext fun a => Fin.ext (by
    match a with
    | ⟨0, _⟩ => exact lhs_row _ _
    | ⟨1, _⟩ => exact (lhs_col _ _).trans hk)
  have er : dot_S512x512_S512x1536_S512x1536_1_0_0_1_n_n.rhsIdx (ix2 p j) ((contrEquiv1 dot_S512x512_S512x1536_S512x1536_1_0_0_1_n_n 512 rfl rfl).symm k) = ix2 k j := funext fun a => Fin.ext (by
    match a with
    | ⟨0, _⟩ => exact (rhs_row _ _).trans hk
    | ⟨1, _⟩ => exact rhs_col _ _)
  rw [el, er]

/-- The wide affine value at (p, j): row p of the block against column j of the weight, plus the bias at j. -/
theorem wide_apply (x0 : Vec Ideal S512x512 .f32) (x1 : Vec Ideal S512x1536 .f32) (x2 : Vec Ideal S1536 .f32) (p : Fin 512) (j : Fin 1536) :
    k0_pay1 x0 x1 x2 (ix2 p j) = (∑ k : Fin 512, x0 (ix2 p k) * x1 (ix2 k j)) + x2 (ix1 j) := by
  unfold k0_pay1
  rw [addf_apply]
  refine congrArg₂ (· + ·) ?_ ?_
  · refine (matmul_apply _ _ p j).trans ?_
    refine Finset.sum_congr rfl fun k _ => ?_
    rw [truncf_apply, truncf_apply, shapeCast_self, shapeCast_self]
  · exact Cert.LibKeepdims.rowdims_apply x2 shapeCasts_S1536_S1x1536 broadcasts_S1x1536_S512x1536 p j

/-- The first stored value at (p, q): column 0 + q of the wide value, times 1/8. -/
theorem payq_apply (x0 : Vec Ideal S512x512 .f32) (x1 : Vec Ideal S512x1536 .f32) (x2 : Vec Ideal S1536 .f32) (p q : Fin 512) :
    k0_pay2 x0 x1 x2 (ix2 p q)
      = ((∑ k : Fin 512, x0 (ix2 p k) * x1 (ix2 k ⟨0 + q.val, by have := q.isLt; omega⟩)) + x2 (ix1 ⟨0 + q.val, by have := q.isLt; omega⟩)) * eighth := by
  unfold k0_pay2
  rw [truncf_apply, mulf_apply, broadcast_apply]
  refine congrArg₂ (· * ·) ?_ rfl
  exact (slice2_axis1_eq 0 (k0_pay1 x0 x1 x2) slices_S512x1536_o0_0_S512x512 p q).trans (wide_apply x0 x1 x2 p _)

/-- The second stored value at (p, q): column 512 + q of the wide value. -/
theorem payk_apply (x0 : Vec Ideal S512x512 .f32) (x1 : Vec Ideal S512x1536 .f32) (x2 : Vec Ideal S1536 .f32) (p q : Fin 512) :
    k0_pay3 x0 x1 x2 (ix2 p q)
      = (∑ k : Fin 512, x0 (ix2 p k) * x1 (ix2 k ⟨512 + q.val, by have := q.isLt; omega⟩)) + x2 (ix1 ⟨512 + q.val, by have := q.isLt; omega⟩) := by
  unfold k0_pay3
  rw [truncf_apply]
  exact (slice2_axis1_eq 512 (k0_pay1 x0 x1 x2) slices_S512x1536_o0_512_S512x512 p q).trans (wide_apply x0 x1 x2 p _)

/-- The third stored value at (p, q): column 1024 + q of the wide value. -/
theorem payv_apply (x0 : Vec Ideal S512x512 .f32) (x1 : Vec Ideal S512x1536 .f32) (x2 : Vec Ideal S1536 .f32) (p q : Fin 512) :
    k0_pay4 x0 x1 x2 (ix2 p q)
      = (∑ k : Fin 512, x0 (ix2 p k) * x1 (ix2 k ⟨1024 + q.val, by have := q.isLt; omega⟩)) + x2 (ix1 ⟨1024 + q.val, by have := q.isLt; omega⟩) := by
  unfold k0_pay4
  rw [truncf_apply]
  exact (slice2_axis1_eq 1024 (k0_pay1 x0 x1 x2) slices_S512x1536_o0_1024_S512x512 p q).trans (wide_apply x0 x1 x2 p _)

/-! ## From the blocks to the arrays -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- Which block each window shows at point `t`: the input and the three results their row block `t`, the weight and
    the bias their one block. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The affine map of the blocks at point `t`, at local row p and column off + q, is the affine map of the arrays at
    row 512·t + p: local row p of the input block is that row of the input, and the weight and bias blocks are the
    whole arrays. -/
theorem affine_block (off : Nat) (hoff : off + 512 ≤ 1536) (c : Dev nD) (t : Fin cfg0.N) (p q : Fin 512) (i : S4096x512.Idx)
    (h0 : (i 0).val = t.val * 512 + p.val) (h1 : (i 1).val = q.val)
    (b0 : Vec Ideal S512x512 .f32) (b1 : Vec Ideal S512x1536 .f32) (b2 : Vec Ideal S1536 .f32)
    (hb0 : b0 = iblk0 V c 0 t) (hb1 : b1 = iblk0 V c 1 t) (hb2 : b2 = iblk0 V c 2 t) :
    (∑ k : Fin 512, b0 (ix2 p k) * b1 (ix2 k ⟨off + q.val, by have := q.isLt; omega⟩)) + b2 (ix1 ⟨off + q.val, by have := q.isLt; omega⟩)
      = projAt off hoff (V c (Pipeline.arrRef spec0 0)) (V c (Pipeline.arrRef spec0 1)) (V c (Pipeline.arrRef spec0 2)) (i 0) (i 1) := by
  subst hb0 hb1 hb2
  obtain ⟨e00, e01, e10, e11, e20, -⟩ := block_index t
  unfold projAt
  refine congrArg₂ (· + ·) (Finset.sum_congr rfl fun k _ => congrArg₂ (· * ·) ?_ ?_) ?_
  · show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 512 + 1 * p.val = (i 0).val; rw [e00, h0]; omega
    | ⟨1, _⟩ => show win0_0.index t (1 : Fin 2) * 512 + 1 * k.val = k.val; rw [e01]; omega
  · show V c (Pipeline.arrRef spec0 1) (((cfg0.win 1).blk t).view.emb (ix2 k ⟨off + q.val, by have := q.isLt; omega⟩)) = _
    refine congrArg (V c (Pipeline.arrRef spec0 1)) (funext fun a => Fin.ext ?_)
    match a with
    | ⟨0, _⟩ => show win0_1.index t (0 : Fin 2) * 512 + 1 * k.val = k.val; rw [e10]; omega
    | ⟨1, _⟩ => show win0_1.index t (1 : Fin 2) * 1536 + 1 * (off + q.val) = off + (i 1).val; rw [e11, h1]; omega
  · show V c (Pipeline.arrRef spec0 2) (((cfg0.win 2).blk t).view.emb (ix1 ⟨off + q.val, by have := q.isLt; omega⟩)) = _
    refine congrArg (V c (Pipeline.arrRef spec0 2)) (funext fun a => Fin.ext ?_)
    match a with
    | ⟨0, _⟩ => show win0_2.index t (0 : Fin 1) * 1536 + 1 * (off + q.val) = off + (i 1).val; rw [e20, h1]; omega

/-- What point `t` writes back to the first result is block `t` of the queries. -/
theorem flushed_q (c : Dev nD) (t : Fin cfg0.N) :
    (dat0 (F := Ideal) V c).flushed 3 t = ((cfg0.win 3).blk t).view.read (Elt Ideal)
      (projQ (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero2]
  simp only [View.ld_unit_zero (S := S512x512) zero2, View.ld_unit_zero (S := S512x1536) zero2, View.ld_unit_zero (S := S1536) zero1]
  obtain ⟨-, -, -, -, -, e30, e31, e40, e41, e50, e51⟩ := block_index t
  funext j
  obtain ⟨p, q, rfl⟩ : ∃ (p q : Fin 512), j = ix2 p q := ⟨j 0, j 1, eq_ix2 j⟩
  show k0_pay2 (iblk0 V c 0 t) (iblk0 V c 1 t) (iblk0 V c 2 t) (ix2 p q)
    = projQ (V c (Pipeline.arrRef spec0 0)) (V c (Pipeline.arrRef spec0 1)) (V c (Pipeline.arrRef spec0 2)) (((cfg0.win 3).blk t).view.emb (ix2 p q))
  refine (payq_apply (iblk0 V c 0 t) (iblk0 V c 1 t) (iblk0 V c 2 t) p q).trans ?_
  unfold projQ
  refine congrArg (· * eighth) (affine_block V 0 (by omega) c t p q (((cfg0.win 3).blk t).view.emb (ix2 p q)) ?_ ?_
    (iblk0 V c 0 t) (iblk0 V c 1 t) (iblk0 V c 2 t) rfl rfl rfl)
  · show win0_3.index t (0 : Fin 2) * 512 + 1 * p.val = _; rw [e30]; omega
  · show win0_3.index t (1 : Fin 2) * 512 + 1 * q.val = _; rw [e31]; omega

/-- An index of the first result lies in point `t`'s block iff each coordinate lies in the block's range on its axis. -/
theorem mem_blk_q (t : Fin cfg0.N) (i : S4096x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2_0).slice (win0_3.rect t)).set ↔ _
  rw [View.set_slice_whole, Rect.mem_set_unit]
  exact Iff.rfl

/-- Row `r` of the first result lies in the block of point `r / 512`, and every point writes its block back. -/
theorem cover_q (i : S4096x512.Idx) : ∃ t : Fin cfg0.N, (cfg0.win 3).flush t = true ∧ i ∈ ((cfg0.win 3).blk t).view.set := by
  have hi0 : (i 0).val < 4096 := (i 0).isLt
  have hi1 : (i 1).val < 512 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, e30, e31, e40, e41, e50, e51⟩ := block_index t
  refine ⟨t, flush0_3 t, ?_⟩
  rw [mem_blk_q]
  intro a
  match a with
  | ⟨0, _⟩ => show win0_3.index t (0 : Fin 2) * 512 ≤ (i 0).val ∧ (i 0).val < win0_3.index t (0 : Fin 2) * 512 + 512; rw [e30, ht]; omega
  | ⟨1, _⟩ => show win0_3.index t (1 : Fin 2) * 512 ≤ (i 1).val ∧ (i 1).val < win0_3.index t (1 : Fin 2) * 512 + 512; rw [e31]; omega

/-- What point `t` writes back to the second result is block `t` of the keys. -/
theorem flushed_k (c : Dev nD) (t : Fin cfg0.N) :
    (dat0 (F := Ideal) V c).flushed 4 t = ((cfg0.win 4).blk t).view.read (Elt Ideal)
      (projK (V c (Pipeline.arrRef spec0 0)) (V c (Pipeline.arrRef spec0 1)) (V c (Pipeline.arrRef spec0 2))) := by
  show (cfg0.win 4).cut (grid0.coords t) ((dat0 V c).after 4 t) = _
  rw [after0_4]
  unfold out0_4
  rw [View.canon_unit_zero zero2]
  simp only [View.ld_unit_zero (S := S512x512) zero2, View.ld_unit_zero (S := S512x1536) zero2, View.ld_unit_zero (S := S1536) zero1]
  obtain ⟨-, -, -, -, -, e30, e31, e40, e41, e50, e51⟩ := block_index t
  funext j
  obtain ⟨p, q, rfl⟩ : ∃ (p q : Fin 512), j = ix2 p q := ⟨j 0, j 1, eq_ix2 j⟩
  show k0_pay3 (iblk0 V c 0 t) (iblk0 V c 1 t) (iblk0 V c 2 t) (ix2 p q)
    = projK (V c (Pipeline.arrRef spec0 0)) (V c (Pipeline.arrRef spec0 1)) (V c (Pipeline.arrRef spec0 2)) (((cfg0.win 4).blk t).view.emb (ix2 p q))
  refine (payk_apply (iblk0 V c 0 t) (iblk0 V c 1 t) (iblk0 V c 2 t) p q).trans ?_
  unfold projK
  refine (affine_block V 512 (by omega) c t p q (((cfg0.win 4).blk t).view.emb (ix2 p q)) ?_ ?_
    (iblk0 V c 0 t) (iblk0 V c 1 t) (iblk0 V c 2 t) rfl rfl rfl)
  · show win0_4.index t (0 : Fin 2) * 512 + 1 * p.val = _; rw [e40]; omega
  · show win0_4.index t (1 : Fin 2) * 512 + 1 * q.val = _; rw [e41]; omega

/-- An index of the second result lies in point `t`'s block iff each coordinate lies in the block's range on its axis. -/
theorem mem_blk_k (t : Fin cfg0.N) (i : S4096x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v2_1).slice (win0_4.rect t)).set ↔ _
  rw [View.set_slice_whole, Rect.mem_set_unit]
  exact Iff.rfl

/-- Row `r` of the second result lies in the block of point `r / 512`, and every point writes its block back. -/
theorem cover_k (i : S4096x512.Idx) : ∃ t : Fin cfg0.N, (cfg0.win 4).flush t = true ∧ i ∈ ((cfg0.win 4).blk t).view.set := by
  have hi0 : (i 0).val < 4096 := (i 0).isLt
  have hi1 : (i 1).val < 512 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, e30, e31, e40, e41, e50, e51⟩ := block_index t
  refine ⟨t, flush0_4 t, ?_⟩
  rw [mem_blk_k]
  intro a
  match a with
  | ⟨0, _⟩ => show win0_4.index t (0 : Fin 2) * 512 ≤ (i 0).val ∧ (i 0).val < win0_4.index t (0 : Fin 2) * 512 + 512; rw [e40, ht]; omega
  | ⟨1, _⟩ => show win0_4.index t (1 : Fin 2) * 512 ≤ (i 1).val ∧ (i 1).val < win0_4.index t (1 : Fin 2) * 512 + 512; rw [e41]; omega

/-- What point `t` writes back to the third result is block `t` of the values. -/
theorem flushed_v (c : Dev nD) (t : Fin cfg0.N) :
    (dat0 (F := Ideal) V c).flushed 5 t = ((cfg0.win 5).blk t).view.read (Elt Ideal)
      (projV (V c (Pipeline.arrRef spec0 0)) (V c (Pipeline.arrRef spec0 1)) (V c (Pipeline.arrRef spec0 2))) := by
  show (cfg0.win 5).cut (grid0.coords t) ((dat0 V c).after 5 t) = _
  rw [after0_5]
  unfold out0_5
  rw [View.canon_unit_zero zero2]
  simp only [View.ld_unit_zero (S := S512x512) zero2, View.ld_unit_zero (S := S512x1536) zero2, View.ld_unit_zero (S := S1536) zero1]
  obtain ⟨-, -, -, -, -, e30, e31, e40, e41, e50, e51⟩ := block_index t
  funext j
  obtain ⟨p, q, rfl⟩ : ∃ (p q : Fin 512), j = ix2 p q := ⟨j 0, j 1, eq_ix2 j⟩
  show k0_pay4 (iblk0 V c 0 t) (iblk0 V c 1 t) (iblk0 V c 2 t) (ix2 p q)
    = projV (V c (Pipeline.arrRef spec0 0)) (V c (Pipeline.arrRef spec0 1)) (V c (Pipeline.arrRef spec0 2)) (((cfg0.win 5).blk t).view.emb (ix2 p q))
  refine (payv_apply (iblk0 V c 0 t) (iblk0 V c 1 t) (iblk0 V c 2 t) p q).trans ?_
  unfold projV
  refine (affine_block V 1024 (by omega) c t p q (((cfg0.win 5).blk t).view.emb (ix2 p q)) ?_ ?_
    (iblk0 V c 0 t) (iblk0 V c 1 t) (iblk0 V c 2 t) rfl rfl rfl)
  · show win0_5.index t (0 : Fin 2) * 512 + 1 * p.val = _; rw [e50]; omega
  · show win0_5.index t (1 : Fin 2) * 512 + 1 * q.val = _; rw [e51]; omega

/-- An index of the third result lies in point `t`'s block iff each coordinate lies in the block's range on its axis. -/
theorem mem_blk_v (t : Fin cfg0.N) (i : S4096x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v2_2).slice (win0_5.rect t)).set ↔ _
  rw [View.set_slice_whole, Rect.mem_set_unit]
  exact Iff.rfl

/-- Row `r` of the third result lies in the block of point `r / 512`, and every point writes its block back. -/
theorem cover_v (i : S4096x512.Idx) : ∃ t : Fin cfg0.N, (cfg0.win 5).flush t = true ∧ i ∈ ((cfg0.win 5).blk t).view.set := by
  have hi0 : (i 0).val < 4096 := (i 0).isLt
  have hi1 : (i 1).val < 512 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, e30, e31, e40, e41, e50, e51⟩ := block_index t
  refine ⟨t, flush0_5 t, ?_⟩
  rw [mem_blk_v]
  intro a
  match a with
  | ⟨0, _⟩ => show win0_5.index t (0 : Fin 2) * 512 ≤ (i 0).val ∧ (i 0).val < win0_5.index t (0 : Fin 2) * 512 + 512; rw [e50, ht]; omega
  | ⟨1, _⟩ => show win0_5.index t (1 : Fin 2) * 512 ≤ (i 1).val ∧ (i 1).val < win0_5.index t (1 : Fin 2) * 512 + 512; rw [e51]; omega

end Region0

variable (V : (c : Dev nD) → (b : Ref sig .tc) → Buf (Elt Ideal) ((c : Thread nD τ).loc b))

/-- The first result array after the region: the queries, `projQ` of the three arrays the region reads, whatever they
    hold when the region is entered. -/
theorem region0_q (c : Dev nD) : (dat0 (F := Ideal) V c).arrAt 3 cfg0.N
    = projQ (V c (Pipeline.arrRef spec0 0)) (V c (Pipeline.arrRef spec0 1)) (V c (Pipeline.arrRef spec0 2)) :=
  (dat0 (F := Ideal) V c).arrAt_eq_of_cover 3 _ (fun t _ => Region0.flushed_q V c t) Region0.cover_q

/-- The second result array after the region: the keys. -/
theorem region0_k (c : Dev nD) : (dat0 (F := Ideal) V c).arrAt 4 cfg0.N
    = projK (V c (Pipeline.arrRef spec0 0)) (V c (Pipeline.arrRef spec0 1)) (V c (Pipeline.arrRef spec0 2)) :=
  (dat0 (F := Ideal) V c).arrAt_eq_of_cover 4 _ (fun t _ => Region0.flushed_k V c t) Region0.cover_k

/-- The third result array after the region: the values. -/
theorem region0_v (c : Dev nD) : (dat0 (F := Ideal) V c).arrAt 5 cfg0.N
    = projV (V c (Pipeline.arrRef spec0 0)) (V c (Pipeline.arrRef spec0 1)) (V c (Pipeline.arrRef spec0 2)) :=
  (dat0 (F := Ideal) V c).arrAt_eq_of_cover 5 _ (fun t _ => Region0.flushed_v V c t) Region0.cover_v

end Cert.KernelIdeal.Bridge

end
-- ==== Proof.Head.lean ====
/-
  One attention head, as the kernel body computes it from a [256, 64] block of queries, the head's [2048, 64] keys
  and its [2048, 64] values: the scores q·kᵀ, each row's maximum taken off, exponentials, each row divided by its sum
  (the softmax), and the softmax times the values.  The eight heads of the body are eight copies of this one
  computation, and the averaged weights are the eight softmaxes added up from zero and scaled by 1/8.

  Read at an index over the extended reals, with plain sums and a fold of max from −∞.
-/
import proofs.«164037_j40080634806734_2_alg».proof.Proof.Gen.KernelIdeal.Skeleton
import proofs.«164037_j40080634806734_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen Idealize.ShloMosaic Idealize.ShloMosaic.ValueIdx

section Generic
variable {F : FTy → Type} [FloatOps F]

/-- A [1,1,256,64] slab viewed as a [256,64] matrix. -/
abbrev asQ (v : Vec F S1x1x256x64 .bf16) : FVec F S256x64 .bf16 := shapeCast S256x64 v shapeCasts_S1x1x256x64_S256x64
/-- A [1,1,2048,64] slab viewed as a [2048,64] matrix. -/
abbrev asK (v : Vec F S1x1x2048x64 .bf16) : FVec F S2048x64 .bf16 := shapeCast S2048x64 v shapeCasts_S1x1x2048x64_S2048x64

/-- The softmax of q·kᵀ along the keys. -/
def softmaxOf (q : FVec F S256x64 .bf16) (k : FVec F S2048x64 .bf16) : FVec F S256x2048 .f32 :=
  have s : FVec F S256x2048 .f32 := matmul dot_S256x64_S2048x64_S256x2048_1_1_0_0_n_n none q k (constant S256x2048 .f32 0x00000000#32)
  have mx : FVec F S256 .f32 := multiReduction .maximumf [1] S256 s 0xFF800000#32 reduces_S256x2048_S256 (.inl rfl) rfl
  have e : FVec F S256x2048 .f32 := exp (subf s (broadcastTo S256x2048 (shapeCast S256x1 mx shapeCasts_S256_S256x1) broadcasts_S256x1_S256x2048))
  have d : FVec F S256 .f32 := multiReduction .add [1] S256 e 0x00000000#32 reduces_S256x2048_S256 (.inl rfl) rfl
  divf e (broadcastTo S256x2048 (shapeCast S256x1 d shapeCasts_S256_S256x1) broadcasts_S256x1_S256x2048)

/-- A head's output block: the softmax p times the values, as a [1,1,256,64] slab. -/
def headOfP (p : FVec F S256x2048 .f32) (v : FVec F S2048x64 .bf16) : FVec F S1x1x256x64 .bf16 :=
  shapeCast S1x1x256x64 (truncf .bf16 (matmul dot_S256x2048_S2048x64_S256x64_1_0_0_1_n_n none (truncf .bf16 p bitsLt_bf16_f32) v (constant S256x64 .f32 0x00000000#32)) bitsLt_bf16_f32) shapeCasts_S256x64_S1x1x256x64

/-- The eight softmaxes added up from zero, scaled by 1/8, as a [1,256,2048] slab. -/
def weightsOf (p0 p1 p2 p3 p4 p5 p6 p7 : FVec F S256x2048 .f32) : FVec F S1x256x2048 .f32 :=
  shapeCast S1x256x2048 (mulf (addf (addf (addf (addf (addf (addf (addf (addf (broadcast S256x2048 (Scalar.ofBits .f32 0x00000000#32)) p0) p1) p2) p3) p4) p5) p6) p7)
    (broadcast S256x2048 (Scalar.ofBits .f32 0x3E000000#32))) shapeCasts_S256x2048_S1x256x2048

/-! The body's payloads are these, head by head (definitional). -/

theorem head0_eq (a : Vec F S1x1x256x64 .bf16) (b c : Vec F S1x1x2048x64 .bf16) :
    k1_pay4 a b c = headOfP (softmaxOf (asQ a) (asK b)) (asK c) := rfl
theorem head1_eq (a : Vec F S1x1x256x64 .bf16) (b c : Vec F S1x1x2048x64 .bf16) :
    k1_pay9 (k1_pay5 a) (k1_pay6 b) c = headOfP (softmaxOf (asQ a) (asK b)) (asK c) := rfl
theorem head2_eq (a : Vec F S1x1x256x64 .bf16) (b c : Vec F S1x1x2048x64 .bf16) :
    k1_pay14 (k1_pay10 c) (k1_pay11 a b) (k1_pay12 a b) = headOfP (softmaxOf (asQ a) (asK b)) (asK c) := rfl
theorem head3_eq (a : Vec F S1x1x256x64 .bf16) (b c : Vec F S1x1x2048x64 .bf16) :
    k1_pay17 a b c = headOfP (softmaxOf (asQ a) (asK b)) (asK c) := rfl
theorem head4_eq (a : Vec F S1x1x256x64 .bf16) (b c : Vec F S1x1x2048x64 .bf16) :
    k1_pay20 a b c = headOfP (softmaxOf (asQ a) (asK b)) (asK c) := rfl
theorem head5_eq (a : Vec F S1x1x256x64 .bf16) (b c : Vec F S1x1x2048x64 .bf16) :
    k1_pay24 (k1_pay21 a) (k1_pay22 b) c = headOfP (softmaxOf (asQ a) (asK b)) (asK c) := rfl
theorem head6_eq (a : Vec F S1x1x256x64 .bf16) (b c : Vec F S1x1x2048x64 .bf16) :
    k1_pay28 (k1_pay25 c) (k1_pay26 a b) = headOfP (softmaxOf (asQ a) (asK b)) (asK c) := rfl
theorem head7_eq (a : Vec F S1x1x256x64 .bf16) (b c : Vec F S1x1x2048x64 .bf16) :
    k1_pay30 a b c = headOfP (softmaxOf (asQ a) (asK b)) (asK c) := rfl

theorem weights_eq (a0 a1 a2 a3 a4 a5 a6 a7 : Vec F S1x1x256x64 .bf16) (b0 b1 b2 b3 b4 b5 b6 b7 : Vec F S1x1x2048x64 .bf16) :
    k1_pay1 (k1_pay31 (k1_pay27 (k1_pay19 (k1_pay16 (k1_pay8 (k1_pay3 a0 b0) (k1_pay5 a1) (k1_pay6 b1)) (k1_pay11 a2 b2) (k1_pay12 a2 b2) a3 b3) a4 b4) (k1_pay21 a5) (k1_pay22 b5) a6 b6) a7 b7)
      = weightsOf (softmaxOf (asQ a0) (asK b0)) (softmaxOf (asQ a1) (asK b1)) (softmaxOf (asQ a2) (asK b2)) (softmaxOf (asQ a3) (asK b3))
          (softmaxOf (asQ a4) (asK b4)) (softmaxOf (asQ a5) (asK b5)) (softmaxOf (asQ a6) (asK b6)) (softmaxOf (asQ a7) (asK b7)) := rfl

end Generic

end Cert.KernelIdeal.Bridge

end
-- ==== Proof.HeadRead.lean ====
/-
  One attention head read at an index over the extended reals: the score of query r against key c is the sum over the
  64 coordinates of the products; a row's maximum is the fold of max from −∞ over its 2048 scores; the softmax weight is
  the exponential of the score less the maximum, divided by the row's sum of such exponentials; a head's output is the
  weights against the values, summed over the 2048 keys; the averaged weights are the eight heads' weights added up
  from zero and scaled by the float pattern of 1/8.
-/
import proofs.«164037_j40080634806734_2_alg».proof.Proof.Head
import proofs.«164037_j40080634806734_2_alg».proof.Proof.Spec

set_option maxRecDepth 16384

noncomputable section

namespace Cert.KernelIdeal.Bridge

open Cert.KernelIdeal Cert.KernelIdeal.Gen Cert.Attn Idealize.ShloMosaic Idealize.ShloMosaic.ValueIdx

abbrev dotQK := dot_S256x64_S2048x64_S256x2048_1_1_0_0_n_n
abbrev dotPV := dot_S256x2048_S2048x64_S256x64_1_0_0_1_n_n

/-! ## The two matrix products at an index -/

theorem lhs_qk_0 (i : S256x2048.Idx) (q : dotQK.contr.Idx) : (dotQK.lhsIdx i q 0).val = (i 0).val := by
  unfold DotDims.lhsIdx
  rw [dif_neg (show ¬(0 : Fin S256x64.rank) ∈ dotQK.lhsBatch by decide), dif_pos (show (0 : Fin S256x64.rank) ∈ dotQK.lhsNonContracting by decide)]
  rfl
theorem lhs_qk_1 (i : S256x2048.Idx) (q : dotQK.contr.Idx) : (dotQK.lhsIdx i q 1).val = (q ⟨0, by decide⟩).val :=
  dotQK.lhsIdx_val_of_single rfl i q
theorem rhs_qk_0 (i : S256x2048.Idx) (q : dotQK.contr.Idx) : (dotQK.rhsIdx i q 0).val = (i 1).val := by
  unfold DotDims.rhsIdx
  rw [dif_neg (show ¬(0 : Fin S2048x64.rank) ∈ dotQK.rhsBatch by decide), dif_pos (show (0 : Fin S2048x64.rank) ∈ dotQK.rhsNonContracting by decide)]
  rfl
theorem rhs_qk_1 (i : S256x2048.Idx) (q : dotQK.contr.Idx) : (dotQK.rhsIdx i q 1).val = (q ⟨0, by decide⟩).val :=
  dotQK.rhsIdx_val_of_single rfl i q

/-- q·kᵀ into the zero accumulator, at (r, c): the sum over the 64 coordinates. -/
theorem scoreDot_apply (q : FVec Ideal S256x64 .bf16) (k : FVec Ideal S2048x64 .bf16) (r : Fin 256) (c : Fin 2048) :
    matmul dotQK none q k (constant (F := Ideal) S256x2048 .f32 0x00000000#32) (ix2 r c) = ∑ d : Fin 64, q (ix2 r d) * k (ix2 c d) := by
  simp only [matmul]
  rw [Ideal.matmul_constant_zero_apply, ← Equiv.sum_comp (ValueIdx.contrEquiv1 dotQK 64 rfl rfl).symm]
  refine Finset.sum_congr rfl fun d _ => ?_
  have hk := ValueIdx.contrEquiv1_symm_val dotQK 64 rfl rfl d
  have el : dotQK.lhsIdx (ix2 r c) ((ValueIdx.contrEquiv1 dotQK 64 rfl rfl).symm d) = ix2 r d := funext fun a => Fin.ext (by
    match a with
    | ⟨0, _⟩ => exact lhs_qk_0 _ _
    | ⟨1, _⟩ => exact (lhs_qk_1 _ _).trans hk)
  have er : dotQK.rhsIdx (ix2 r c) ((ValueIdx.contrEquiv1 dotQK 64 rfl rfl).symm d) = ix2 c d := funext fun a => Fin.ext (by
    match a with
    | ⟨0, _⟩ => exact rhs_qk_0 _ _
    | ⟨1, _⟩ => exact (rhs_qk_1 _ _).trans hk)
  rw [el, er]

theorem lhs_pv_0 (i : S256x64.Idx) (q : dotPV.contr.Idx) : (dotPV.lhsIdx i q 0).val = (i 0).val := by
  unfold DotDims.lhsIdx
  rw [dif_neg (show ¬(0 : Fin S256x2048.rank) ∈ dotPV.lhsBatch by decide), dif_pos (show (0 : Fin S256x2048.rank) ∈ dotPV.lhsNonContracting by decide)]
  rfl
theorem lhs_pv_1 (i : S256x64.Idx) (q : dotPV.contr.Idx) : (dotPV.lhsIdx i q 1).val = (q ⟨0, by decide⟩).val :=
  dotPV.lhsIdx_val_of_single rfl i q
theorem rhs_pv_0 (i : S256x64.Idx) (q : dotPV.contr.Idx) : (dotPV.rhsIdx i q 0).val = (q ⟨0, by decide⟩).val :=
  dotPV.rhsIdx_val_of_single rfl i q
theorem rhs_pv_1 (i : S256x64.Idx) (q : dotPV.contr.Idx) : (dotPV.rhsIdx i q 1).val = (i 1).val := by
  unfold DotDims.rhsIdx
  rw [dif_neg (show ¬(1 : Fin S2048x64.rank) ∈ dotPV.rhsBatch by decide), dif_pos (show (1 : Fin S2048x64.rank) ∈ dotPV.rhsNonContracting by decide)]
  rfl

/-- p·v into the zero accumulator, at (r, d): the sum over the 2048 keys. -/
theorem pvDot_apply (p : FVec Ideal S256x2048 .bf16) (v : FVec Ideal S2048x64 .bf16) (r : Fin 256) (d : Fin 64) :
    matmul dotPV none p v (constant (F := Ideal) S256x64 .f32 0x00000000#32) (ix2 r d) = ∑ t : Fin 2048, p (ix2 r t) * v (ix2 t d) := by
  simp only [matmul]
  rw [Ideal.matmul_constant_zero_apply, ← Equiv.sum_comp (ValueIdx.contrEquiv1 dotPV 2048 rfl rfl).symm]
  refine Finset.sum_congr rfl fun t _ => ?_
  have hk := ValueIdx.contrEquiv1_symm_val dotPV 2048 rfl rfl t
  have el : dotPV.lhsIdx (ix2 r d) ((ValueIdx.contrEquiv1 dotPV 2048 rfl rfl).symm t) = ix2 r t := funext fun a => Fin.ext (by
    match a with
    | ⟨0, _⟩ => exact lhs_pv_0 _ _
    | ⟨1, _⟩ => exact (lhs_pv_1 _ _).trans hk)
  have er : dotPV.rhsIdx (ix2 r d) ((ValueIdx.contrEquiv1 dotPV 2048 rfl rfl).symm t) = ix2 t d := funext fun a => Fin.ext (by
    match a with
    | ⟨0, _⟩ => exact (rhs_pv_0 _ _).trans hk
    | ⟨1, _⟩ => exact rhs_pv_1 _ _)
  rw [el, er]

/-! ## A row's maximum and sum -/

theorem lift_row (r : Fin 256) (c : Fin 2048) : reduces_S256x2048_S256.lift (ix1 r) c = ix2 r c :=
  funext fun a => Fin.ext (by match a with | ⟨0, _⟩ => rfl | ⟨1, _⟩ => rfl)

/-- The row maximum: the fold of max from −∞ over the row. -/
theorem rowMax_apply (s : FVec Ideal S256x2048 .f32) (r : Fin 256) :
    multiReduction .maximumf [1] S256 s 0xFF800000#32 reduces_S256x2048_S256 (.inl rfl) rfl (ix1 r)
      = (Finset.univ : Finset (Fin 2048)).fold max negInf (fun c => s (ix2 r c)) := by
  refine (Ideal.multiReduction_maximumf_single s 0xFF800000#32 reduces_S256x2048_S256 (.inl rfl) rfl (ix1 r)).trans ?_
  exact congrArg (fun f : Fin 2048 → EReal => (Finset.univ : Finset (Fin 2048)).fold max negInf f) (funext fun c => congrArg s (lift_row r c))

/-- The row sum. -/
theorem rowSum_apply (e : FVec Ideal S256x2048 .f32) (r : Fin 256) :
    multiReduction .add [1] S256 e 0x00000000#32 reduces_S256x2048_S256 (.inl rfl) rfl (ix1 r) = ∑ c : Fin 2048, e (ix2 r c) := by
  refine (Ideal.multiReduction_add_single e 0x00000000#32 reduces_S256x2048_S256 (.inl rfl) rfl (ix1 r)).trans ?_
  exact Finset.sum_congr rfl fun c _ => congrArg e (lift_row r c)

/-! ## The softmax of a head -/

/-- The softmax of one row of scores, at key `c`: the exponential of the score less the row's maximum, over the row's sum
    of such exponentials. -/
def smRow (row : Fin 2048 → EReal) (c : Fin 2048) : EReal :=
  Ideal.div (Ideal.exp (row c - (Finset.univ : Finset (Fin 2048)).fold max negInf row))
    (∑ c' : Fin 2048, Ideal.exp (row c' - (Finset.univ : Finset (Fin 2048)).fold max negInf row))

/-- The specification's weight is the softmax of the specification's row of scores. -/
theorem prob_eq_smRow (q k : AHeads) (b : Fin 2) (h : Fin 8) (s t : Fin 2048) :
    prob q k b h s t = smRow (fun t' => score q k b h s t') t := rfl

theorem softmaxOf_apply (q : FVec Ideal S256x64 .bf16) (k : FVec Ideal S2048x64 .bf16) (r : Fin 256) (c : Fin 2048) :
    softmaxOf (F := Ideal) q k (ix2 r c) = smRow (fun c' => ∑ d : Fin 64, q (ix2 r d) * k (ix2 c' d)) c := by
  unfold softmaxOf smRow
  dsimp only
  rw [divf_apply]
  rw [Cert.LibKeepdims.keepdims_apply, rowSum_apply]
  have he : ∀ c' : Fin 2048, exp (subf (matmul dotQK none q k (constant (F := Ideal) S256x2048 .f32 0x00000000#32))
        (broadcastTo S256x2048 (shapeCast S256x1 (multiReduction .maximumf [1] S256 (matmul dotQK none q k (constant (F := Ideal) S256x2048 .f32 0x00000000#32)) 0xFF800000#32 reduces_S256x2048_S256 (.inl rfl) rfl) shapeCasts_S256_S256x1) broadcasts_S256x1_S256x2048)) (ix2 r c')
      = Ideal.exp ((∑ d : Fin 64, q (ix2 r d) * k (ix2 c' d)) - (Finset.univ : Finset (Fin 2048)).fold max negInf (fun c'' => ∑ d : Fin 64, q (ix2 r d) * k (ix2 c'' d))) := by
    intro c'
    show Ideal.exp (_ - _) = _
    rw [Cert.LibKeepdims.keepdims_apply, rowMax_apply, scoreDot_apply]
    simp only [scoreDot_apply]
  simp only [he]

/-! ## The slabs read at an index -/

theorem asQ_apply (v : Vec Ideal S1x1x256x64 .bf16) (r : Fin 256) (d : Fin 64) : asQ v (ix2 r d) = v (ix4 0 0 r d) :=
  shapeCast_apply v shapeCasts_S1x1x256x64_S256x64 _ _ (by
    rw [Shape.rowMajor_val_two, Shape.rowMajor_val_four]
    show ((0 * 1 + 0) * 256 + r.val) * 64 + d.val = r.val * 64 + d.val
    omega)

theorem asK_apply (v : Vec Ideal S1x1x2048x64 .bf16) (s : Fin 2048) (d : Fin 64) : asK v (ix2 s d) = v (ix4 0 0 s d) :=
  shapeCast_apply v shapeCasts_S1x1x2048x64_S2048x64 _ _ (by
    rw [Shape.rowMajor_val_two, Shape.rowMajor_val_four]
    show ((0 * 1 + 0) * 2048 + s.val) * 64 + d.val = s.val * 64 + d.val
    omega)

/-- A head's output slab at (·, ·, r, d): the weights of row r against column d of the values. -/
theorem headOfP_apply (p : FVec Ideal S256x2048 .f32) (v : FVec Ideal S2048x64 .bf16) (a b : Fin 1) (r : Fin 256) (d : Fin 64) :
    headOfP p v (ix4 a b r d) = ∑ t : Fin 2048, p (ix2 r t) * v (ix2 t d) := by
  unfold headOfP
  refine (shapeCast_apply _ shapeCasts_S256x64_S1x1x256x64 (ix4 a b r d) (ix2 r d) (by
    rw [Shape.rowMajor_val_two, Shape.rowMajor_val_four]
    show r.val * 64 + d.val = ((a.val * 1 + b.val) * 256 + r.val) * 64 + d.val
    have := a.isLt; have := b.isLt; omega)).trans ?_
  rw [truncf_apply]
  exact pvDot_apply _ v r d

/-- The averaged-weights slab at (·, r, c): the eight softmaxes there added up from zero, times 1/8. -/
theorem weightsOf_apply (p0 p1 p2 p3 p4 p5 p6 p7 : FVec Ideal S256x2048 .f32) (a : Fin 1) (r : Fin 256) (c : Fin 2048) :
    weightsOf p0 p1 p2 p3 p4 p5 p6 p7 (ix3 a r c)
      = ((((((((0 + p0 (ix2 r c)) + p1 (ix2 r c)) + p2 (ix2 r c)) + p3 (ix2 r c)) + p4 (ix2 r c)) + p5 (ix2 r c)) + p6 (ix2 r c)) + p7 (ix2 r c)) * eighth := by
  unfold weightsOf
  refine (shapeCast_apply _ shapeCasts_S256x2048_S1x256x2048 (ix3 a r c) (ix2 r c) (by
    rw [Shape.rowMajor_val_two, Shape.rowMajor_val_three]
    show r.val * 2048 + c.val = (a.val * 256 + r.val) * 2048 + c.val
    have := a.isLt; omega)).trans ?_
  show ((((((((Ideal.ofBits .f32 0x00000000#32 + _) + _) + _) + _) + _) + _) + _) + _) * _ = _
  rw [Ideal.ofBits_zero_f32]
  rfl

end Cert.KernelIdeal.Bridge

end
-- ==== Proof.Region1Block.lean ====
/-
  The attention region: what each grid point (batch b, query tile qi) writes back, and the two output arrays.

  At point t = 8 b + qi the body holds rows 256 qi … 256 qi + 255 of the queries of batch b (all eight heads) and all
  keys and values of batch b.  For each head it stores the softmax-weighted sums of the values, and once the eight
  heads' weights added up and scaled by 1/8.  Every entry of the two output arrays lies in exactly the block of the
  point of its batch and query tile, so the arrays end at the specification's functions of the region's inputs.
-/
import proofs.«164037_j40080634806734_2_alg».proof.Proof.Gen.KernelIdeal.Frame
import proofs.«164037_j40080634806734_2_alg».proof.Proof.HeadRead
import proofs.«164037_j40080634806734_2_alg».proof.Proof.Spec

set_option maxRecDepth 16384

noncomputable section

namespace Cert.KernelIdeal.Bridge

open Cert.KernelIdeal Cert.KernelIdeal.Gen Cert.Attn Idealize.ShloMosaic Idealize.ShloMosaic.TcCoe Idealize.SL.Sem Idealize.ShloMosaic.ValueIdx
open Idealize.ShloMosaic.Pipeline (Dat)

/-! ## One block's values, over the block's own coordinates -/

/-- Head h, query row r of the block: its 2048 scores. -/
def blkRow (x0 : FVec Ideal S1x8x256x64 .bf16) (x1 : FVec Ideal S1x8x2048x64 .bf16) (h : Fin 8) (r : Fin 256) : Fin 2048 → EReal :=
  fun c => ∑ d : Fin 64, x0 (ix4 0 h r d) * x1 (ix4 0 h c d)

def blkOutAt (x0 : FVec Ideal S1x8x256x64 .bf16) (x1 x2 : FVec Ideal S1x8x2048x64 .bf16) (h : Fin 8) (r : Fin 256) (d : Fin 64) : EReal :=
  ∑ t : Fin 2048, smRow (blkRow x0 x1 h r) t * x2 (ix4 0 h t d)

def blkOut (x0 : FVec Ideal S1x8x256x64 .bf16) (x1 x2 : FVec Ideal S1x8x2048x64 .bf16) : S1x8x256x64.Idx → EReal :=
  fun y => blkOutAt x0 x1 x2 (y 1) (y 2) (y 3)

def blkWAt (x0 : FVec Ideal S1x8x256x64 .bf16) (x1 : FVec Ideal S1x8x2048x64 .bf16) (r : Fin 256) (c : Fin 2048) : EReal :=
  ((((((((0 + smRow (blkRow x0 x1 0 r) c) + smRow (blkRow x0 x1 1 r) c) + smRow (blkRow x0 x1 2 r) c) + smRow (blkRow x0 x1 3 r) c)
    + smRow (blkRow x0 x1 4 r) c) + smRow (blkRow x0 x1 5 r) c) + smRow (blkRow x0 x1 6 r) c) + smRow (blkRow x0 x1 7 r) c) * eighth

def blkW (x0 : FVec Ideal S1x8x256x64 .bf16) (x1 : FVec Ideal S1x8x2048x64 .bf16) : S1x256x2048.Idx → EReal :=
  fun y => blkWAt x0 x1 (y 1) (y 2)

/-! ## A head's slabs are the block read at that head -/

theorem ldq_apply (hn : Nat) (hh : hn < 8) (inb : ∀ a, (![0, hn, 0, 0] : Fin 4 → Nat) a + S1x1x256x64.size a ≤ S1x8x256x64.size a)
    (x0 : FVec Ideal S1x8x256x64 .bf16) (r : Fin 256) (d : Fin 64) :
    asQ (View.ld x0 (Rect.unit (s := S1x8x256x64) ![0, hn, 0, 0] S1x1x256x64.size inb)) (ix2 r d) = x0 (ix4 0 ⟨hn, hh⟩ r d) := by
  refine (asQ_apply _ r d).trans ?_
  show x0 ((Rect.unit (s := S1x8x256x64) ![0, hn, 0, 0] S1x1x256x64.size inb).emb (ix4 0 0 r d)) = _
  refine congrArg x0 (funext fun a => Fin.ext ?_)
  match a with
  | ⟨0, _⟩ => rfl
  | ⟨1, _⟩ => show hn + 1 * 0 = hn; omega
  | ⟨2, _⟩ => show 0 + 1 * r.val = r.val; omega
  | ⟨3, _⟩ => show 0 + 1 * d.val = d.val; omega

theorem ldk_apply (hn : Nat) (hh : hn < 8) (inb : ∀ a, (![0, hn, 0, 0] : Fin 4 → Nat) a + S1x1x2048x64.size a ≤ S1x8x2048x64.size a)
    (x1 : FVec Ideal S1x8x2048x64 .bf16) (s : Fin 2048) (d : Fin 64) :
    asK (View.ld x1 (Rect.unit (s := S1x8x2048x64) ![0, hn, 0, 0] S1x1x2048x64.size inb)) (ix2 s d) = x1 (ix4 0 ⟨hn, hh⟩ s d) := by
  refine (asK_apply _ s d).trans ?_
  show x1 ((Rect.unit (s := S1x8x2048x64) ![0, hn, 0, 0] S1x1x2048x64.size inb).emb (ix4 0 0 s d)) = _
  refine congrArg x1 (funext fun a => Fin.ext ?_)
  match a with
  | ⟨0, _⟩ => rfl
  | ⟨1, _⟩ => show hn + 1 * 0 = hn; omega
  | ⟨2, _⟩ => show 0 + 1 * s.val = s.val; omega
  | ⟨3, _⟩ => show 0 + 1 * d.val = d.val; omega

/-- The softmax of head hn of the block. -/
theorem sm_piece (hn : Nat) (hh : hn < 8) (inbq : ∀ a, (![0, hn, 0, 0] : Fin 4 → Nat) a + S1x1x256x64.size a ≤ S1x8x256x64.size a)
    (inbk : ∀ a, (![0, hn, 0, 0] : Fin 4 → Nat) a + S1x1x2048x64.size a ≤ S1x8x2048x64.size a)
    (x0 : FVec Ideal S1x8x256x64 .bf16) (x1 : FVec Ideal S1x8x2048x64 .bf16) (r : Fin 256) (c : Fin 2048) :
    softmaxOf (F := Ideal) (asQ (View.ld x0 (Rect.unit (s := S1x8x256x64) ![0, hn, 0, 0] S1x1x256x64.size inbq)))
        (asK (View.ld x1 (Rect.unit (s := S1x8x2048x64) ![0, hn, 0, 0] S1x1x2048x64.size inbk))) (ix2 r c)
      = smRow (blkRow x0 x1 ⟨hn, hh⟩ r) c := by
  refine (softmaxOf_apply _ _ r c).trans ?_
  refine congrArg (fun row => smRow row c) (funext fun c' => ?_)
  show _ = ∑ d : Fin 64, x0 (ix4 0 ⟨hn, hh⟩ r d) * x1 (ix4 0 ⟨hn, hh⟩ c' d)
  refine Finset.sum_congr rfl fun d _ => ?_
  rw [ldq_apply hn hh inbq x0 r d, ldk_apply hn hh inbk x1 c' d]

/-- A head's stored slab is the block's function on that head's rectangle. -/
theorem head_piece (hn : Nat) (hh : hn < 8) (inbq : ∀ a, (![0, hn, 0, 0] : Fin 4 → Nat) a + S1x1x256x64.size a ≤ S1x8x256x64.size a)
    (inbk : ∀ a, (![0, hn, 0, 0] : Fin 4 → Nat) a + S1x1x2048x64.size a ≤ S1x8x2048x64.size a)
    (x0 : FVec Ideal S1x8x256x64 .bf16) (x1 x2 : FVec Ideal S1x8x2048x64 .bf16) (x : S1x1x256x64.Idx) :
    headOfP (F := Ideal) (softmaxOf (F := Ideal) (asQ (View.ld x0 (Rect.unit (s := S1x8x256x64) ![0, hn, 0, 0] S1x1x256x64.size inbq)))
        (asK (View.ld x1 (Rect.unit (s := S1x8x2048x64) ![0, hn, 0, 0] S1x1x2048x64.size inbk))))
      (asK (View.ld x2 (Rect.unit (s := S1x8x2048x64) ![0, hn, 0, 0] S1x1x2048x64.size inbk))) x
      = blkOut x0 x1 x2 ((Rect.unit (s := S1x8x256x64) ![0, hn, 0, 0] S1x1x256x64.size inbq).emb x) := by
  obtain ⟨a, b, r, d, rfl⟩ : ∃ (a b : Fin 1) (r : Fin 256) (d : Fin 64), x = ix4 a b r d := ⟨x 0, x 1, x 2, x 3, eq_ix4 x⟩
  have e : (Rect.unit (s := S1x8x256x64) ![0, hn, 0, 0] S1x1x256x64.size inbq).emb (ix4 a b r d) = ix4 0 ⟨hn, hh⟩ r d :=
    funext fun ax => Fin.ext (by
      match ax with
      | ⟨0, _⟩ => show 0 + 1 * a.val = 0; have := a.isLt; omega
      | ⟨1, _⟩ => show hn + 1 * b.val = hn; have := b.isLt; omega
      | ⟨2, _⟩ => show 0 + 1 * r.val = r.val; omega
      | ⟨3, _⟩ => show 0 + 1 * d.val = d.val; omega)
  rw [e]
  refine (headOfP_apply _ _ a b r d).trans ?_
  show _ = ∑ t : Fin 2048, smRow (blkRow x0 x1 ⟨hn, hh⟩ r) t * x2 (ix4 0 ⟨hn, hh⟩ t d)
  refine Finset.sum_congr rfl fun t _ => ?_
  rw [sm_piece hn hh inbq inbk x0 x1 r t, ldk_apply hn hh inbk x2 t d]

/-- What the body leaves in the heads' output buffer: the block's function. -/
theorem out1_3_eq (x0 : FVec Ideal S1x8x256x64 .bf16) (x1 x2 : FVec Ideal S1x8x2048x64 .bf16) :
    out1_3 (F := Ideal) x0 x1 x2 = blkOut x0 x1 x2 := by
  funext y
  unfold out1_3
  rw [head0_eq, head1_eq, head2_eq, head3_eq, head4_eq, head5_eq, head6_eq, head7_eq]
  refine View.canon_apply_of_pieces (Val := Elt Ideal) (blkOut x0 x1 x2) _ ?_ y (cover1_3 _ _ _ _ _ _ _ _ y)
  intro p hp x
  simp only [List.mem_cons, List.mem_singleton, List.not_mem_nil, or_false] at hp
  rcases hp with rfl | rfl | rfl | rfl | rfl | rfl | rfl | rfl
  · exact head_piece 7 (by omega) _ _ x0 x1 x2 x
  · exact head_piece 6 (by omega) _ _ x0 x1 x2 x
  · exact head_piece 5 (by omega) _ _ x0 x1 x2 x
  · exact head_piece 4 (by omega) _ _ x0 x1 x2 x
  · exact head_piece 3 (by omega) _ _ x0 x1 x2 x
  · exact head_piece 2 (by omega) _ _ x0 x1 x2 x
  · exact head_piece 1 (by omega) _ _ x0 x1 x2 x
  · exact head_piece 0 (by omega) _ _ x0 x1 x2 x

theorem hz3 : (![0, 0, 0] : Fin 3 → Nat) = fun _ => 0 := funext fun a => by fin_cases a <;> rfl

/-- What the body leaves in the averaged-weights buffer. -/
theorem out1_4_eq (x0 : FVec Ideal S1x8x256x64 .bf16) (x1 x2 : FVec Ideal S1x8x2048x64 .bf16) :
    out1_4 (F := Ideal) x0 x1 x2 = blkW x0 x1 := by
  unfold out1_4
  rw [weights_eq, View.canon_unit_zero hz3]
  funext y
  obtain ⟨a, r, c, rfl⟩ : ∃ (a : Fin 1) (r : Fin 256) (c : Fin 2048), y = ix3 a r c := ⟨y 0, y 1, y 2, eq_ix3 y⟩
  refine (weightsOf_apply _ _ _ _ _ _ _ _ a r c).trans ?_
  rw [sm_piece 0 (by omega) _ _ x0 x1 r c, sm_piece 1 (by omega) _ _ x0 x1 r c, sm_piece 2 (by omega) _ _ x0 x1 r c,
    sm_piece 3 (by omega) _ _ x0 x1 r c, sm_piece 4 (by omega) _ _ x0 x1 r c, sm_piece 5 (by omega) _ _ x0 x1 r c,
    sm_piece 6 (by omega) _ _ x0 x1 r c, sm_piece 7 (by omega) _ _ x0 x1 r c]
  rfl

end Cert.KernelIdeal.Bridge

end
-- ==== Proof.Region1.lean ====
/-
  The attention region's two output arrays as whole-array functions of its three input arrays.
  Point t = 8 b + qi (b the batch, qi the query tile) reads queries (b, ·, 256 qi + r, ·) and every key and value of
  batch b; its blocks of the two outputs are (b, ·, 256 qi + r, ·) and (b, 256 qi + r, ·).  The sixteen points' blocks
  cover both arrays.
-/
import proofs.«164037_j40080634806734_2_alg».proof.Proof.Region1Block

set_option maxRecDepth 16384

noncomputable section

namespace Cert.KernelIdeal.Bridge

open Cert.KernelIdeal Cert.KernelIdeal.Gen Cert.Attn Idealize.ShloMosaic Idealize.ShloMosaic.TcCoe Idealize.SL.Sem Idealize.ShloMosaic.ValueIdx
open Idealize.ShloMosaic.Pipeline (Dat)

/-- The five windows' block indices at every point of the grid. -/
theorem idx_facts1 : ∀ t : Fin cfg1.N,
    (win1_0.index t (0 : Fin 4) = t.val / 8 ∧ win1_0.index t (1 : Fin 4) = 0 ∧ win1_0.index t (2 : Fin 4) = t.val % 8 ∧ win1_0.index t (3 : Fin 4) = 0)
    ∧ (win1_1.index t (0 : Fin 4) = t.val / 8 ∧ win1_1.index t (1 : Fin 4) = 0 ∧ win1_1.index t (2 : Fin 4) = 0 ∧ win1_1.index t (3 : Fin 4) = 0)
    ∧ (win1_2.index t (0 : Fin 4) = t.val / 8 ∧ win1_2.index t (1 : Fin 4) = 0 ∧ win1_2.index t (2 : Fin 4) = 0 ∧ win1_2.index t (3 : Fin 4) = 0)
    ∧ (win1_3.index t (0 : Fin 4) = t.val / 8 ∧ win1_3.index t (1 : Fin 4) = 0 ∧ win1_3.index t (2 : Fin 4) = t.val % 8 ∧ win1_3.index t (3 : Fin 4) = 0)
    ∧ (win1_4.index t (0 : Fin 3) = t.val / 8 ∧ win1_4.index t (1 : Fin 3) = t.val % 8 ∧ win1_4.index t (2 : Fin 3) = 0) :=
  (by decide +kernel : ∀ t : Fin grid1.N, _)

theorem t_lt (t : Fin cfg1.N) : t.val < 16 := by
  exact lt_of_lt_of_eq (show t.val < grid1.N from t.isLt) N_1

/-- The batch of point t. -/
def tb (t : Fin cfg1.N) : Fin 2 := ⟨t.val / 8, by have := t_lt t; omega⟩
/-- Row r of point t's query tile, as a row of the sequence. -/
def tq (t : Fin cfg1.N) (r : Fin 256) : Fin 2048 := ⟨256 * (t.val % 8) + r.val, by have := r.isLt; omega⟩

section Region
variable (V : (c : Dev nD) → (b : Ref sig .tc) → Buf (Elt Ideal) ((c : Thread nD τ).loc b))

/-- The query block of point t. -/
theorem blkq (c : Dev nD) (t : Fin cfg1.N) (h : Fin 8) (r : Fin 256) (d : Fin 64) :
    iblk1 V c 0 t (ix4 0 h r d) = V c (Pipeline.arrRef spec1 0) (ix4 (tb t) h (tq t r) d) := by
  obtain ⟨⟨e0, e1, e2, e3⟩, -⟩ := idx_facts1 t
  show V c (Pipeline.arrRef spec1 0) (((cfg1.win 0).blk t).view.emb (ix4 0 h r d)) = _
  refine congrArg (V c (Pipeline.arrRef spec1 0)) (funext fun a => Fin.ext ?_)
  match a with
  | ⟨0, _⟩ => show win1_0.index t (0 : Fin 4) * 1 + 1 * 0 = t.val / 8; omega
  | ⟨1, _⟩ => show win1_0.index t (1 : Fin 4) * 8 + 1 * h.val = h.val; omega
  | ⟨2, _⟩ => show win1_0.index t (2 : Fin 4) * 256 + 1 * r.val = 256 * (t.val % 8) + r.val; omega
  | ⟨3, _⟩ => show win1_0.index t (3 : Fin 4) * 64 + 1 * d.val = d.val; omega

/-- The key block of point t: all of batch b. -/
theorem blkk (c : Dev nD) (t : Fin cfg1.N) (h : Fin 8) (s : Fin 2048) (d : Fin 64) :
    iblk1 V c 1 t (ix4 0 h s d) = V c (Pipeline.arrRef spec1 1) (ix4 (tb t) h s d) := by
  obtain ⟨-, ⟨e0, e1, e2, e3⟩, -⟩ := idx_facts1 t
  show V c (Pipeline.arrRef spec1 1) (((cfg1.win 1).blk t).view.emb (ix4 0 h s d)) = _
  refine congrArg (V c (Pipeline.arrRef spec1 1)) (funext fun a => Fin.ext ?_)
  match a with
  | ⟨0, _⟩ => show win1_1.index t (0 : Fin 4) * 1 + 1 * 0 = t.val / 8; omega
  | ⟨1, _⟩ => show win1_1.index t (1 : Fin 4) * 8 + 1 * h.val = h.val; omega
  | ⟨2, _⟩ => show win1_1.index t (2 : Fin 4) * 2048 + 1 * s.val = s.val; omega
  | ⟨3, _⟩ => show win1_1.index t (3 : Fin 4) * 64 + 1 * d.val = d.val; omega

/-- The value block of point t: all of batch b. -/
theorem blkv (c : Dev nD) (t : Fin cfg1.N) (h : Fin 8) (s : Fin 2048) (d : Fin 64) :
    iblk1 V c 2 t (ix4 0 h s d) = V c (Pipeline.arrRef spec1 2) (ix4 (tb t) h s d) := by
  obtain ⟨-, -, ⟨e0, e1, e2, e3⟩, -⟩ := idx_facts1 t
  show V c (Pipeline.arrRef spec1 2) (((cfg1.win 2).blk t).view.emb (ix4 0 h s d)) = _
  refine congrArg (V c (Pipeline.arrRef spec1 2)) (funext fun a => Fin.ext ?_)
  match a with
  | ⟨0, _⟩ => show win1_2.index t (0 : Fin 4) * 1 + 1 * 0 = t.val / 8; omega
  | ⟨1, _⟩ => show win1_2.index t (1 : Fin 4) * 8 + 1 * h.val = h.val; omega
  | ⟨2, _⟩ => show win1_2.index t (2 : Fin 4) * 2048 + 1 * s.val = s.val; omega
  | ⟨3, _⟩ => show win1_2.index t (3 : Fin 4) * 64 + 1 * d.val = d.val; omega

/-- The block's row of scores is the specification's row of scores. -/
theorem blkRow_eq (c : Dev nD) (t : Fin cfg1.N) (h : Fin 8) (r : Fin 256) :
    blkRow (iblk1 V c 0 t) (iblk1 V c 1 t) h r
      = fun s => score (V c (Pipeline.arrRef spec1 0)) (V c (Pipeline.arrRef spec1 1)) (tb t) h (tq t r) s := by
  funext s
  simp only [blkRow, score]
  refine Finset.sum_congr rfl fun d _ => ?_
  rw [blkq V c t h r d, blkk V c t h s d]

/-- WHAT POINT t WRITES BACK of the heads' outputs is its block of the specification. -/
theorem flushed3_eq (c : Dev nD) (t : Fin cfg1.N) :
    (dat1 V c).flushed 3 t = ((cfg1.win 3).blk t).view.read (Elt Ideal)
      (attnOut (V c (Pipeline.arrRef spec1 0)) (V c (Pipeline.arrRef spec1 1)) (V c (Pipeline.arrRef spec1 2))) := by
  show (cfg1.win 3).cut (grid1.coords t) ((dat1 V c).after 3 t) = _
  rw [after1_3]
  funext (y : S1x8x256x64.Idx)
  refine (congrFun (out1_3_eq (iblk1 V c 0 t) (iblk1 V c 1 t) (iblk1 V c 2 t)) y).trans ?_
  obtain ⟨a, h, r, d, rfl⟩ : ∃ (a : Fin 1) (h : Fin 8) (r : Fin 256) (d : Fin 64), y = ix4 a h r d := ⟨y 0, y 1, y 2, y 3, eq_ix4 y⟩
  obtain ⟨-, -, -, ⟨e0, e1, e2, e3⟩, -⟩ := idx_facts1 t
  have e : ((cfg1.win 3).blk t).view.emb (ix4 a h r d) = ix4 (tb t) h (tq t r) d := funext fun ax => Fin.ext (by
    match ax with
    | ⟨0, _⟩ => show win1_3.index t (0 : Fin 4) * 1 + 1 * a.val = t.val / 8; have := a.isLt; omega
    | ⟨1, _⟩ => show win1_3.index t (1 : Fin 4) * 8 + 1 * h.val = h.val; omega
    | ⟨2, _⟩ => show win1_3.index t (2 : Fin 4) * 256 + 1 * r.val = 256 * (t.val % 8) + r.val; omega
    | ⟨3, _⟩ => show win1_3.index t (3 : Fin 4) * 64 + 1 * d.val = d.val; omega)
  show blkOutAt (iblk1 V c 0 t) (iblk1 V c 1 t) (iblk1 V c 2 t) h r d
    = attnOut (V c (Pipeline.arrRef spec1 0)) (V c (Pipeline.arrRef spec1 1)) (V c (Pipeline.arrRef spec1 2)) (((cfg1.win 3).blk t).view.emb (ix4 a h r d))
  rw [e]
  calc blkOutAt (iblk1 V c 0 t) (iblk1 V c 1 t) (iblk1 V c 2 t) h r d
      = ∑ s : Fin 2048, prob (V c (Pipeline.arrRef spec1 0)) (V c (Pipeline.arrRef spec1 1)) (tb t) h (tq t r) s
          * (V c (Pipeline.arrRef spec1 2) : AHeads) (ix4 (tb t) h s d) := by
        unfold blkOutAt
        rw [blkRow_eq V c t h r]
        refine Finset.sum_congr rfl fun s _ => ?_
        rw [blkv V c t h s d, prob_eq_smRow]
    _ = attnOut (V c (Pipeline.arrRef spec1 0)) (V c (Pipeline.arrRef spec1 1)) (V c (Pipeline.arrRef spec1 2)) (ix4 (tb t) h (tq t r) d) := rfl

/-- WHAT POINT t WRITES BACK of the averaged weights is its block of the specification. -/
theorem flushed4_eq (c : Dev nD) (t : Fin cfg1.N) :
    (dat1 V c).flushed 4 t = ((cfg1.win 4).blk t).view.read (Elt Ideal)
      (attnW (V c (Pipeline.arrRef spec1 0)) (V c (Pipeline.arrRef spec1 1))) := by
  show (cfg1.win 4).cut (grid1.coords t) ((dat1 V c).after 4 t) = _
  rw [after1_4]
  funext (y : S1x256x2048.Idx)
  refine (congrFun (out1_4_eq (iblk1 V c 0 t) (iblk1 V c 1 t) (iblk1 V c 2 t)) y).trans ?_
  obtain ⟨a, r, s, rfl⟩ : ∃ (a : Fin 1) (r : Fin 256) (s : Fin 2048), y = ix3 a r s := ⟨y 0, y 1, y 2, eq_ix3 y⟩
  obtain ⟨-, -, -, -, ⟨e0, e1, e2⟩⟩ := idx_facts1 t
  have e : ((cfg1.win 4).blk t).view.emb (ix3 a r s) = ix3 (tb t) (tq t r) s := funext fun ax => Fin.ext (by
    match ax with
    | ⟨0, _⟩ => show win1_4.index t (0 : Fin 3) * 1 + 1 * a.val = t.val / 8; have := a.isLt; omega
    | ⟨1, _⟩ => show win1_4.index t (1 : Fin 3) * 256 + 1 * r.val = 256 * (t.val % 8) + r.val; omega
    | ⟨2, _⟩ => show win1_4.index t (2 : Fin 3) * 2048 + 1 * s.val = s.val; omega)
  show blkWAt (iblk1 V c 0 t) (iblk1 V c 1 t) r s
    = attnW (V c (Pipeline.arrRef spec1 0)) (V c (Pipeline.arrRef spec1 1)) (((cfg1.win 4).blk t).view.emb (ix3 a r s))
  rw [e]
  unfold blkWAt
  simp only [blkRow_eq V c t _ r]
  rfl

/-! ## The cover -/

theorem mem_blk3 (t : Fin cfg1.N) (i : S2x8x2048x64.Idx) :
    i ∈ ((cfg1.win 3).blk t).view.set ↔ ∀ a : Fin 4, win1_3.index t a * S1x8x256x64.size a ≤ (i a).val ∧ (i a).val < win1_3.index t a * S1x8x256x64.size a + S1x8x256x64.size a := by
  show i ∈ ((View.whole main_v12_0).slice (win1_3.rect t)).set ↔ _
  rw [View.set_slice_whole, Rect.mem_set_unit]
  exact Iff.rfl

theorem mem_blk4 (t : Fin cfg1.N) (i : S2x2048x2048.Idx) :
    i ∈ ((cfg1.win 4).blk t).view.set ↔ ∀ a : Fin 3, win1_4.index t a * S1x256x2048.size a ≤ (i a).val ∧ (i a).val < win1_4.index t a * S1x256x2048.size a + S1x256x2048.size a := by
  show i ∈ ((View.whole main_v12_1).slice (win1_4.rect t)).set ↔ _
  rw [View.set_slice_whole, Rect.mem_set_unit]
  exact Iff.rfl

/-- The point of batch b and query tile qi. -/
def pt (b : Nat) (qi : Nat) (hb : b < 2) (hq : qi < 8) : Fin cfg1.N := ⟨8 * b + qi, by rw [show cfg1.N = 16 from N_1]; omega⟩

theorem cover3 (i : S2x8x2048x64.Idx) : ∃ t : Fin cfg1.N, (cfg1.win 3).flush t = true ∧ i ∈ ((cfg1.win 3).blk t).view.set := by
  have h0 : (i 0).val < 2 := (i 0).isLt
  have h1 : (i 1).val < 8 := (i 1).isLt
  have h2 : (i 2).val < 2048 := (i 2).isLt
  have h3 : (i 3).val < 64 := (i 3).isLt
  refine ⟨pt (i 0).val ((i 2).val / 256) h0 (by omega), flush1_3 _, ?_⟩
  rw [mem_blk3]
  obtain ⟨-, -, -, ⟨e0, e1, e2, e3⟩, -⟩ := idx_facts1 (pt (i 0).val ((i 2).val / 256) h0 (by omega))
  have hv : (pt (i 0).val ((i 2).val / 256) h0 (by omega)).val = 8 * (i 0).val + (i 2).val / 256 := rfl
  intro a
  match a with
  | ⟨0, _⟩ => show win1_3.index _ (0 : Fin 4) * 1 ≤ (i 0).val ∧ (i 0).val < win1_3.index _ (0 : Fin 4) * 1 + 1; omega
  | ⟨1, _⟩ => show win1_3.index _ (1 : Fin 4) * 8 ≤ (i 1).val ∧ (i 1).val < win1_3.index _ (1 : Fin 4) * 8 + 8; omega
  | ⟨2, _⟩ => show win1_3.index _ (2 : Fin 4) * 256 ≤ (i 2).val ∧ (i 2).val < win1_3.index _ (2 : Fin 4) * 256 + 256; omega
  | ⟨3, _⟩ => show win1_3.index _ (3 : Fin 4) * 64 ≤ (i 3).val ∧ (i 3).val < win1_3.index _ (3 : Fin 4) * 64 + 64; omega

theorem cover4 (i : S2x2048x2048.Idx) : ∃ t : Fin cfg1.N, (cfg1.win 4).flush t = true ∧ i ∈ ((cfg1.win 4).blk t).view.set := by
  have h0 : (i 0).val < 2 := (i 0).isLt
  have h1 : (i 1).val < 2048 := (i 1).isLt
  have h2 : (i 2).val < 2048 := (i 2).isLt
  refine ⟨pt (i 0).val ((i 1).val / 256) h0 (by omega), flush1_4 _, ?_⟩
  rw [mem_blk4]
  obtain ⟨-, -, -, -, ⟨e0, e1, e2⟩⟩ := idx_facts1 (pt (i 0).val ((i 1).val / 256) h0 (by omega))
  have hv : (pt (i 0).val ((i 1).val / 256) h0 (by omega)).val = 8 * (i 0).val + (i 1).val / 256 := rfl
  intro a
  match a with
  | ⟨0, _⟩ => show win1_4.index _ (0 : Fin 3) * 1 ≤ (i 0).val ∧ (i 0).val < win1_4.index _ (0 : Fin 3) * 1 + 1; omega
  | ⟨1, _⟩ => show win1_4.index _ (1 : Fin 3) * 256 ≤ (i 1).val ∧ (i 1).val < win1_4.index _ (1 : Fin 3) * 256 + 256; omega
  | ⟨2, _⟩ => show win1_4.index _ (2 : Fin 3) * 2048 ≤ (i 2).val ∧ (i 2).val < win1_4.index _ (2 : Fin 3) * 2048 + 2048; omega

/-! ## The two arrays -/

/-- The heads' outputs after the region. -/
theorem region1_out (c : Dev nD) : (dat1 (F := Ideal) V c).arrAt 3 cfg1.N
    = attnOut (V c (Pipeline.arrRef spec1 0)) (V c (Pipeline.arrRef spec1 1)) (V c (Pipeline.arrRef spec1 2)) :=
  (dat1 V c).arrAt_eq_of_cover 3 _ (fun t _ => flushed3_eq V c t) cover3

/-- The averaged weights after the region. -/
theorem region1_w (c : Dev nD) : (dat1 (F := Ideal) V c).arrAt 4 cfg1.N
    = attnW (V c (Pipeline.arrRef spec1 0)) (V c (Pipeline.arrRef spec1 1)) :=
  (dat1 V c).arrAt_eq_of_cover 4 _ (fun t _ => flushed4_eq V c t) cover4

end Region

end Cert.KernelIdeal.Bridge

end
-- ==== Proof.Region2.lean ====
/-
  The output projection as a whole-array function.

  The third region walks the [4096, 512] array of head outputs in eight blocks of 512 rows.  At each block it holds the
  whole transposed [512, 512] weight and the [512] bias, multiplies the block's rows by the weight from a zero accumulator,
  adds the bias to every row, and writes the [512, 512] result to the same rows of the output array.  Entry (r, e) of
  the output is therefore  ∑_k a(r, k) · w(k, e) + b(e),  which is `Cert.Attn.outProj`: the entry depends on row r of
  the head outputs, column e of the weight and entry e of the bias only.  Over the extended reals the roundings to
  bf16 are the identity.
-/
import proofs.«164037_j40080634806734_2_alg».proof.Proof.Gen.KernelIdeal.Frame
import proofs.«164037_j40080634806734_2_alg».proof.Proof.Spec
import proofs.«164037_j40080634806734_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen Cert.Attn Idealize.ShloMosaic Idealize.ShloMosaic.TcCoe Idealize.SL.Sem Idealize.ShloMosaic.ValueIdx

namespace Region2

/-! ## The body's stored value at an index

The matrix product contracts axis 1 of the left operand with axis 0 of the right one: at the result's (p, q) and the
contraction position k the left operand is read at (p, k) and the right one at (k, q). -/

/-- The left operand's row is the result's row. -/
theorem lhs_row (i : S512x512.Idx) (k : dot_S512x512_S512x512_S512x512_1_0_0_1_n_n.contr.Idx) :
    (dot_S512x512_S512x512_S512x512_1_0_0_1_n_n.lhsIdx i k 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- The left operand's column is the contraction position. -/
theorem lhs_col (i : S512x512.Idx) (k : dot_S512x512_S512x512_S512x512_1_0_0_1_n_n.contr.Idx) :
    (dot_S512x512_S512x512_S512x512_1_0_0_1_n_n.lhsIdx i k 1).val = (k ⟨0, by decide⟩).val :=
  dot_S512x512_S512x512_S512x512_1_0_0_1_n_n.lhsIdx_val_of_single rfl i k
/-- The right operand's row is the contraction position. -/
theorem rhs_row (i : S512x512.Idx) (k : dot_S512x512_S512x512_S512x512_1_0_0_1_n_n.contr.Idx) :
    (dot_S512x512_S512x512_S512x512_1_0_0_1_n_n.rhsIdx i k 0).val = (k ⟨0, by decide⟩).val :=
  dot_S512x512_S512x512_S512x512_1_0_0_1_n_n.rhsIdx_val_of_single rfl i k
/-- The right operand's column is the result's column. -/
theorem rhs_col (i : S512x512.Idx) (k : dot_S512x512_S512x512_S512x512_1_0_0_1_n_n.contr.Idx) :
    (dot_S512x512_S512x512_S512x512_1_0_0_1_n_n.rhsIdx i k 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The matrix product from a zero accumulator, at (p, q): the sum over k of a(p, k) · b(k, q). -/
theorem matmul_apply (a b : FVec Ideal S512x512 .bf16) (p q : Fin 512) :
    matmul dot_S512x512_S512x512_S512x512_1_0_0_1_n_n none a b (constant S512x512 .f32 0x00000000#32) (ix2 p q)
      = ∑ k : Fin 512, a (ix2 p k) * b (ix2 k q) := by
  show FloatOps.matmul dot_S512x512_S512x512_S512x512_1_0_0_1_n_n none a b (constant S512x512 .f32 0x00000000#32) (ix2 p q) = _
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_row _ _
    | ⟨1, _⟩ => exact (lhs_col _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_row _ _).trans hk
    | ⟨1, _⟩ => exact rhs_col _ _)
  rw [el, er]

/-- The body's stored value at (p, q): row p of the block against column q of the weight, plus the bias at q. -/
theorem pay_apply (x0 : Vec Ideal S512x512 .bf16) (x1 : Vec Ideal S512x512 .f32) (x2 : Vec Ideal S512 .f32) (p q : Fin 512) :
    k2_pay1 x0 x1 x2 (ix2 p q) = (∑ k : Fin 512, x0 (ix2 p k) * x1 (ix2 k q)) + x2 (ix1 q) := by
  unfold k2_pay1
  rw [addf_apply]
  refine congrArg₂ (· + ·) ?_ ?_
  · refine (matmul_apply _ _ p q).trans ?_
    refine Finset.sum_congr rfl fun k _ => ?_
    rw [truncf_apply, shapeCast_self, shapeCast_self]
  · exact Cert.LibKeepdims.rowdims_apply x2 shapeCasts_S512_S1x512 broadcasts_S1x512_S512x512 p q

/-! ## From the blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- Which block each window shows at point `t`: the head outputs and the result their row block `t`, the weight and
    the bias their one block. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of `outProj` of the arrays the region reads: local row p of the block is
    row 512·t + p of both the head outputs and the result, and the weight and bias blocks are the whole arrays. -/
theorem flushed_eq (c : Dev nD) (t : Fin cfg2.N) :
    (dat2 (F := Ideal) V c).flushed 3 t = ((cfg2.win 3).blk t).view.read (Elt Ideal)
      (outProj (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero2]
  simp only [View.ld_unit_zero (S := S512x512) zero2, View.ld_unit_zero (S := S512) zero1]
  obtain ⟨e00, e01, e10, e11, e20, e30, e31⟩ := block_index t
  funext j
  obtain ⟨p, q, rfl⟩ : ∃ (p q : Fin 512), j = ix2 p q := ⟨j 0, j 1, eq_ix2 j⟩
  show k2_pay1 (iblk2 V c 0 t) (iblk2 V c 1 t) (iblk2 V c 2 t) (ix2 p q)
    = outProj (V c (Pipeline.arrRef spec2 0)) (V c (Pipeline.arrRef spec2 1)) (V c (Pipeline.arrRef spec2 2)) (((cfg2.win 3).blk t).view.emb (ix2 p q))
  refine (pay_apply (iblk2 V c 0 t) (iblk2 V c 1 t) (iblk2 V c 2 t) p q).trans ?_
  unfold outProj
  refine congrArg₂ (· + ·) (Finset.sum_congr rfl fun k _ => congrArg₂ (· * ·) ?_ ?_) ?_
  · show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 512 + 1 * p.val = win2_3.index t (0 : Fin 2) * 512 + 1 * p.val; rw [e00, e30]
    | ⟨1, _⟩ => show win2_0.index t (1 : Fin 2) * 512 + 1 * k.val = k.val; rw [e01]; omega
  · show V c (Pipeline.arrRef spec2 1) (((cfg2.win 1).blk t).view.emb (ix2 k q)) = _
    refine congrArg (V c (Pipeline.arrRef spec2 1)) (funext fun a => Fin.ext ?_)
    match a with
    | ⟨0, _⟩ => show win2_1.index t (0 : Fin 2) * 512 + 1 * k.val = k.val; rw [e10]; omega
    | ⟨1, _⟩ => show win2_1.index t (1 : Fin 2) * 512 + 1 * q.val = win2_3.index t (1 : Fin 2) * 512 + 1 * q.val; rw [e11, e31]
  · show V c (Pipeline.arrRef spec2 2) (((cfg2.win 2).blk t).view.emb (ix1 q)) = _
    refine congrArg (V c (Pipeline.arrRef spec2 2)) (funext fun a => Fin.ext ?_)
    match a with
    | ⟨0, _⟩ => show win2_2.index t (0 : Fin 1) * 512 + 1 * q.val = win2_3.index t (1 : Fin 2) * 512 + 1 * q.val; rw [e20, e31]

/-- An index of the array lies in point `t`'s block iff each coordinate lies in the block's range on its axis. -/
theorem mem_blk (t : Fin cfg2.N) (i : S4096x512.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v17).slice (win2_3.rect t)).set ↔ _
  rw [View.set_slice_whole, Rect.mem_set_unit]
  exact Iff.rfl

/-- Row `r` of the array lies in the block of point `r / 512`, and every point writes its block back. -/
theorem cover (i : S4096x512.Idx) : ∃ t : Fin cfg2.N, (cfg2.win 3).flush t = true ∧ i ∈ ((cfg2.win 3).blk t).view.set := by
  have hi0 : (i 0).val < 4096 := (i 0).isLt
  have hi1 : (i 1).val < 512 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨-, -, -, -, -, e30, e31⟩ := block_index t
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; rw [e30, ht]; omega
  | ⟨1, _⟩ => show win2_3.index t (1 : Fin 2) * 512 ≤ (i 1).val ∧ (i 1).val < win2_3.index t (1 : Fin 2) * 512 + 512; rw [e31]; omega

end Region2

variable (V : (c : Dev nD) → (b : Ref sig .tc) → Buf (Elt Ideal) ((c : Thread nD τ).loc b))

/-- The output projection's array after the region: `outProj` of the three arrays the region reads, whatever they
    hold when the region is entered. -/
theorem region2_out (c : Dev nD) : (dat2 (F := Ideal) V c).arrAt 3 cfg2.N
    = outProj (V c (Pipeline.arrRef spec2 0)) (V c (Pipeline.arrRef spec2 1)) (V c (Pipeline.arrRef spec2 2)) :=
  (dat2 (F := Ideal) V c).arrAt_eq_of_cover 3 _ (fun t _ => Region2.flushed_eq V c t) Region2.cover

end Cert.KernelIdeal.Bridge

end
-- ==== Proof.Composite.lean ====
/-
  The whole layer as ONE function of the five argument arrays, written with the three kernels' whole-array functions
  and the re-layouts between them: rows (s, b) of x flattened to 2s + b; the weights transposed; a [4096, 512] array
  read as heads (b, h, s, d) at row 2s + b, column 64h + d; the heads' outputs read back as rows.
-/
import proofs.«164037_j40080634806734_2_alg».proof.Proof.Spec

noncomputable section

namespace Cert.Attn

open Idealize.ShloMosaic Idealize.ShloMosaic.ValueIdx

abbrev AX := (⟨3, ![2048, 2, 512]⟩ : Shape).Idx → EReal
abbrev AWin := (⟨2, ![1536, 512]⟩ : Shape).Idx → EReal

/-- x with its rows (s, b) flattened: row r is (r / 2, r % 2). -/
def flatX (x : AX) : A4096x512 := fun i : (⟨2, ![4096, 512]⟩ : Shape).Idx =>
  x (ix3 ⟨(i 0).val / 2, by have h0 : (i 0).val < 4096 := (i 0).isLt; omega⟩ ⟨(i 0).val % 2, by omega⟩ (i 1))
/-- The input weight transposed. -/
def transIn (w : AWin) : A512x1536 := fun i : (⟨2, ![512, 1536]⟩ : Shape).Idx => w (ix2 (i 1) (i 0))
/-- The output weight transposed. -/
def transOut (w : A512x512) : A512x512 := fun i : (⟨2, ![512, 512]⟩ : Shape).Idx => w (ix2 (i 1) (i 0))
/-- A [4096, 512] array read as heads: (b, h, s, d) is row 2s + b, column 64h + d. -/
def toHeads (a : A4096x512) : AHeads := fun i : (⟨4, ![2, 8, 2048, 64]⟩ : Shape).Idx =>
  a (ix2 ⟨2 * (i 2).val + (i 0).val, by have h2 : (i 2).val < 2048 := (i 2).isLt; have h0 : (i 0).val < 2 := (i 0).isLt; omega⟩ ⟨64 * (i 1).val + (i 3).val, by have h1 : (i 1).val < 8 := (i 1).isLt; have h3 : (i 3).val < 64 := (i 3).isLt; omega⟩)
/-- The heads read back as rows: row r, column e is (r % 2, e / 64, r / 2, e % 64). -/
def fromHeads (a : AHeads) : A4096x512 := fun i : (⟨2, ![4096, 512]⟩ : Shape).Idx =>
  a (ix4 ⟨(i 0).val % 2, by omega⟩ ⟨(i 1).val / 64, by have h1 : (i 1).val < 512 := (i 1).isLt; omega⟩ ⟨(i 0).val / 2, by have h0 : (i 0).val < 4096 := (i 0).isLt; omega⟩ ⟨(i 1).val % 64, by omega⟩)

def headsQ (x : AX) (w : AWin) (b : A1536) : AHeads := toHeads (projQ (flatX x) (transIn w) b)
def headsK (x : AX) (w : AWin) (b : A1536) : AHeads := toHeads (projK (flatX x) (transIn w) b)
def headsV (x : AX) (w : AWin) (b : A1536) : AHeads := toHeads (projV (flatX x) (transIn w) b)

/-- The layer's output. -/
def layerOut (x : AX) (w : AWin) (b : A1536) (wo : A512x512) (bo : A512) : AX := fun i : (⟨3, ![2048, 2, 512]⟩ : Shape).Idx =>
  outProj (fromHeads (attnOut (headsQ x w b) (headsK x w b) (headsV x w b))) (transOut wo) bo
    (ix2 ⟨2 * (i 0).val + (i 1).val, by have h0 : (i 0).val < 2048 := (i 0).isLt; have h1 : (i 1).val < 2 := (i 1).isLt; omega⟩ (i 2))

/-- The layer's averaged attention weights. -/
def layerW (x : AX) (w : AWin) (b : A1536) : AWeights := attnW (headsQ x w b) (headsK x w b)

end Cert.Attn

end
-- ==== Proof.KernelValue.lean ====
/-
  The kernel program's two results as the layer's functions of the five argument arrays: the host re-layouts between
  the regions (rows flattened, weights transposed, rows read as heads and back) composed with the three regions'
  whole-array functions.
-/
import proofs.«164037_j40080634806734_2_alg».proof.Proof.KRun
import proofs.«164037_j40080634806734_2_alg».proof.Proof.HostChain
import proofs.«164037_j40080634806734_2_alg».proof.Proof.Region0
import proofs.«164037_j40080634806734_2_alg».proof.Proof.Region1
import proofs.«164037_j40080634806734_2_alg».proof.Proof.Region2
import proofs.«164037_j40080634806734_2_alg».proof.Proof.Composite

set_option maxRecDepth 16384

noncomputable section

namespace Cert.KernelIdeal.Bridge

open Cert.KernelIdeal Cert.KernelIdeal.Gen Cert.Attn Idealize.ShloMosaic Idealize.ShloMosaic.TcCoe Idealize.SL.Sem Idealize.ShloMosaic.ValueIdx

variable (m : (ℓ : Loc nD τ sig) → Buf (Elt Ideal) ℓ) (ρ : Dev nD → PrngReg)

/-- The queries, keys and values as region 1 finds them. -/
theorem entry1_heads (c : Dev nD) :
    V3 m ρ c (Pipeline.arrRef spec1 0) = headsQ (m ((c : Thread nD τ).loc main_arg0)) (m ((c : Thread nD τ).loc main_arg1)) (m ((c : Thread nD τ).loc main_arg2))
    ∧ V3 m ρ c (Pipeline.arrRef spec1 1) = headsK (m ((c : Thread nD τ).loc main_arg0)) (m ((c : Thread nD τ).loc main_arg1)) (m ((c : Thread nD τ).loc main_arg2))
    ∧ V3 m ρ c (Pipeline.arrRef spec1 2) = headsV (m ((c : Thread nD τ).loc main_arg0)) (m ((c : Thread nD τ).loc main_arg1)) (m ((c : Thread nD τ).loc main_arg2)) := by
  refine ⟨?_, ?_, ?_⟩
  · rw [entry1_q m ρ c, region0_q (V1 m ρ) c, entry0_x m ρ c, entry0_w m ρ c, entry0_b m ρ c]; rfl
  · rw [entry1_k m ρ c, region0_k (V1 m ρ) c, entry0_x m ρ c, entry0_w m ρ c, entry0_b m ρ c]; rfl
  · rw [entry1_v m ρ c, region0_v (V1 m ρ) c, entry0_x m ρ c, entry0_w m ρ c, entry0_b m ρ c]; rfl

/-- The averaged attention weights the program returns. -/
theorem kernel_w (c : Dev nD) : W7 m ρ c (Proc.devRef .tc main_v12_1)
    = layerW (m ((c : Thread nD τ).loc main_arg0)) (m ((c : Thread nD τ).loc main_arg1)) (m ((c : Thread nD τ).loc main_arg2)) := by
  obtain ⟨hq, hk, -⟩ := entry1_heads m ρ c
  rw [result_w m ρ c, region1_w (V3 m ρ) c, hq, hk]
  rfl

/-- The output the program returns. -/
theorem kernel_out (c : Dev nD) : W7 m ρ c (Proc.devRef .tc main_v18)
    = layerOut (m ((c : Thread nD τ).loc main_arg0)) (m ((c : Thread nD τ).loc main_arg1)) (m ((c : Thread nD τ).loc main_arg2))
        (m ((c : Thread nD τ).loc main_arg3)) (m ((c : Thread nD τ).loc main_arg4)) := by
  obtain ⟨hq, hk, hv⟩ := entry1_heads m ρ c
  rw [result_out m ρ c, region2_out (V5 m ρ) c, entry2_a m ρ c, entry2_w m ρ c, entry2_b m ρ c, region1_out (V3 m ρ) c, hq, hk, hv]
  rfl

end Cert.KernelIdeal.Bridge

end
-- ==== Proof.RefBridgeA.lean ====
/- The reference program's stages up to the softmax weights, read at explicit coordinates: the affine map
   [2048,2,512] → [2048,2,1536], its three column blocks as the layer's queries (scaled), keys and values, their
   split into 16 = 2·8 (batch, head) slices, slice 8 b + h being batch b, head h, and per slice the scores, the row
   maxima, the exponentials, the row sums and the quotients. -/
import proofs.«164037_j40080634806734_2_alg».proof.Proof.Gen.ReferenceIdeal.Read
import proofs.«164037_j40080634806734_2_alg».proof.Proof.Composite

set_option maxRecDepth 16384

noncomputable section

namespace Cert.ReferenceIdeal.Bridge

open Cert.ReferenceIdeal Cert.ReferenceIdeal.Read Cert.Attn Idealize.ShloMosaic Idealize.ShloMosaic.ValueIdx

variable (x : (⟨S2048x2x512, .f32⟩ : BufTy).Contents (Elt Ideal)) (w : (⟨S1536x512, .f32⟩ : BufTy).Contents (Elt Ideal))
  (bi : (⟨S1536, .f32⟩ : BufTy).Contents (Elt Ideal))

/-! ## The affine map -/

/-- Entry (s, bb, f) of the affine map: row (s, bb) of x against row f of w, plus the bias at f. -/
theorem v3_at (s : Fin 2048) (bb : Fin 2) (f : Fin 1536) :
    val_main_v3 (F := Ideal) x w bi (ix3 s bb f) = (∑ k : Fin 512, x (ix3 s bb k) * w (ix2 f k)) + bi (ix1 f) := by
  rw [val_main_v3_apply, val_main_v0_apply, val_main_v2_apply, val_main_v1_apply]
  have e1 : ∀ k : Fin 512, lidx_main_v0 (ix3 s bb f) k = ix3 s bb k := fun k => by
    funext a; match a with | ⟨0, _⟩ => rfl | ⟨1, _⟩ => rfl | ⟨2, _⟩ => rfl
  have e2 : ∀ k : Fin 512, ridx_main_v0 (ix3 s bb f) k = ix2 f k := fun k => by
    funext a; match a with | ⟨0, _⟩ => rfl | ⟨1, _⟩ => rfl
  have e3 : idx_main_v1 (idx_main_v2 (ix3 s bb f)) = ix1 f := by
    funext a; match a with | ⟨0, _⟩ => rfl
  rw [e3]
  exact congrArg (· + bi (ix1 f)) (Finset.sum_congr rfl fun k _ => by rw [e1, e2])

/-- Column off + e of the layer's affine map at the flattened row 2 s + bb, written over x and w themselves. -/
theorem projAt_flat (off : Nat) (hoff : off + 512 ≤ 1536) (s : Fin 2048) (bb : Fin 2) (e : Fin 512) :
    projAt off hoff (flatX x) (transIn w) bi
        (⟨2 * s.val + bb.val, by have hs := s.isLt; have hb := bb.isLt; omega⟩ : Fin 4096) e
      = (∑ k : Fin 512, x (ix3 s bb k) * w (ix2 (⟨off + e.val, by have he := e.isLt; omega⟩ : Fin 1536) k))
          + bi (ix1 (⟨off + e.val, by have he := e.isLt; omega⟩ : Fin 1536)) := by
  have hs := s.isLt
  have hb := bb.isLt
  unfold projAt
  refine congrArg (· + _) (Finset.sum_congr rfl fun k _ => ?_)
  have e1 : flatX x (ix2 (⟨2 * s.val + bb.val, by omega⟩ : Fin 4096) k) = x (ix3 s bb k) := by
    refine congrArg x ?_
    funext a
    match a with
    | ⟨0, _⟩ => exact Fin.ext (show (2 * s.val + bb.val) / 2 = s.val by omega)
    | ⟨1, _⟩ => exact Fin.ext (show (2 * s.val + bb.val) % 2 = bb.val by omega)
    | ⟨2, _⟩ => rfl
  rw [e1]
  rfl

/-- The first column block, scaled: the queries. -/
theorem v8_at (s : Fin 2048) (bb : Fin 2) (e : Fin 512) :
    val_main_v8 (F := Ideal) x w bi (ix3 s bb e)
      = projQ (flatX x) (transIn w) bi
          (ix2 (⟨2 * s.val + bb.val, by have hs := s.isLt; have hb := bb.isLt; omega⟩ : Fin 4096) e) := by
  rw [val_main_v8_apply, val_main_v4_apply, val_main_v7_apply, val_main_cst_apply]
  have e4 : idx_main_v4 (ix3 s bb e) = ix3 s bb (⟨0 + e.val, by have he := e.isLt; omega⟩ : Fin 1536) := by
    funext a
    match a with
    | ⟨0, _⟩ => rfl
    | ⟨1, _⟩ => rfl
    | ⟨2, _⟩ => exact Fin.ext (Nat.zero_add _).symm
  rw [e4, v3_at]
  exact (congrArg (· * eighth) (projAt_flat x w bi 0 (by omega) s bb e)).symm

/-- The second column block: the keys. -/
theorem v5_at (s : Fin 2048) (bb : Fin 2) (e : Fin 512) :
    val_main_v5 (F := Ideal) x w bi (ix3 s bb e)
      = projK (flatX x) (transIn w) bi
          (ix2 (⟨2 * s.val + bb.val, by have hs := s.isLt; have hb := bb.isLt; omega⟩ : Fin 4096) e) := by
  rw [val_main_v5_apply]
  have e5 : idx_main_v5 (ix3 s bb e) = ix3 s bb (⟨512 + e.val, by have he := e.isLt; omega⟩ : Fin 1536) := by
    funext a
    match a with
    | ⟨0, _⟩ => rfl
    | ⟨1, _⟩ => rfl
    | ⟨2, _⟩ => rfl
  rw [e5, v3_at]
  exact (projAt_flat x w bi 512 (by omega) s bb e).symm

/-- The third column block: the values. -/
theorem v6_at (s : Fin 2048) (bb : Fin 2) (e : Fin 512) :
    val_main_v6 (F := Ideal) x w bi (ix3 s bb e)
      = projV (flatX x) (transIn w) bi
          (ix2 (⟨2 * s.val + bb.val, by have hs := s.isLt; have hb := bb.isLt; omega⟩ : Fin 4096) e) := by
  rw [val_main_v6_apply]
  have e6 : idx_main_v6 (ix3 s bb e) = ix3 s bb (⟨1024 + e.val, by have he := e.isLt; omega⟩ : Fin 1536) := by
    funext a
    match a with
    | ⟨0, _⟩ => rfl
    | ⟨1, _⟩ => rfl
    | ⟨2, _⟩ => rfl
  rw [e6, v3_at]
  exact (projAt_flat x w bi 1024 (by omega) s bb e).symm

/-! ## The split into heads -/

/-- [2048,2,512] read as [2048,16,64]: the index with row-major position that of (s, 8 b + h, d) is (s, b, 64 h + d). -/
theorem split_idx (s : Fin 2048) (b : Fin 2) (h : Fin 8) (d : Fin 64) (j : S2048x2x512.Idx)
    (h0 : (j 0).val = ((s.val * 16 + (8 * b.val + h.val)) * 64 + d.val) / 1024)
    (h1 : (j 1).val = ((s.val * 16 + (8 * b.val + h.val)) * 64 + d.val) / 512 % 2)
    (h2 : (j 2).val = ((s.val * 16 + (8 * b.val + h.val)) * 64 + d.val) % 512) :
    j = ix3 s b (⟨64 * h.val + d.val, by have hh := h.isLt; have hd := d.isLt; omega⟩ : Fin 512) := by
  have hs := s.isLt
  have hb := b.isLt
  have hh := h.isLt
  have hd := d.isLt
  have e0 : (j 0).val = s.val := by rw [h0]; omega
  have e1 : (j 1).val = b.val := by rw [h1]; omega
  have e2 : (j 2).val = 64 * h.val + d.val := by rw [h2]; omega
  funext a
  match a with
  | ⟨0, _⟩ => exact Fin.ext e0
  | ⟨1, _⟩ => exact Fin.ext e1
  | ⟨2, _⟩ => exact Fin.ext e2

/-- Slice 8 b + h of the reference's queries is head (b, h) of the layer's. -/
theorem v10_at (b : Fin 2) (h : Fin 8) (s : Fin 2048) (d : Fin 64) :
    val_main_v10 (F := Ideal) x w bi
        (ix3 (⟨8 * b.val + h.val, by have hb := b.isLt; have hh := h.isLt; omega⟩ : Fin 16) s d)
      = headsQ x w bi (ix4 b h s d) := by
  rw [val_main_v10_apply, val_main_v9_apply]
  have e10 : idx_main_v10 (ix3 (⟨8 * b.val + h.val, by have hb := b.isLt; have hh := h.isLt; omega⟩ : Fin 16) s d)
      = ix3 s (⟨8 * b.val + h.val, by have hb := b.isLt; have hh := h.isLt; omega⟩ : Fin 16) d := by
    funext a
    match a with
    | ⟨0, _⟩ => rfl
    | ⟨1, _⟩ => rfl
    | ⟨2, _⟩ => rfl
  rw [e10, split_idx s b h d (idx_main_v9 (ix3 s (⟨8 * b.val + h.val, by have hb := b.isLt; have hh := h.isLt; omega⟩ : Fin 16) d)) rfl rfl rfl,
    v8_at]
  rfl

/-- The same for the keys. -/
theorem v12_at (b : Fin 2) (h : Fin 8) (s : Fin 2048) (d : Fin 64) :
    val_main_v12 (F := Ideal) x w bi
        (ix3 (⟨8 * b.val + h.val, by have hb := b.isLt; have hh := h.isLt; omega⟩ : Fin 16) s d)
      = headsK x w bi (ix4 b h s d) := by
  rw [val_main_v12_apply, val_main_v11_apply]
  have e12 : idx_main_v12 (ix3 (⟨8 * b.val + h.val, by have hb := b.isLt; have hh := h.isLt; omega⟩ : Fin 16) s d)
      = ix3 s (⟨8 * b.val + h.val, by have hb := b.isLt; have hh := h.isLt; omega⟩ : Fin 16) d := by
    funext a
    match a with
    | ⟨0, _⟩ => rfl
    | ⟨1, _⟩ => rfl
    | ⟨2, _⟩ => rfl
  rw [e12, split_idx s b h d (idx_main_v11 (ix3 s (⟨8 * b.val + h.val, by have hb := b.isLt; have hh := h.isLt; omega⟩ : Fin 16) d)) rfl rfl rfl,
    v5_at]
  rfl

/-- The same for the values. -/
theorem v14_at (b : Fin 2) (h : Fin 8) (s : Fin 2048) (d : Fin 64) :
    val_main_v14 (F := Ideal) x w bi
        (ix3 (⟨8 * b.val + h.val, by have hb := b.isLt; have hh := h.isLt; omega⟩ : Fin 16) s d)
      = headsV x w bi (ix4 b h s d) := by
  rw [val_main_v14_apply, val_main_v13_apply]
  have e14 : idx_main_v14 (ix3 (⟨8 * b.val + h.val, by have hb := b.isLt; have hh := h.isLt; omega⟩ : Fin 16) s d)
      = ix3 s (⟨8 * b.val + h.val, by have hb := b.isLt; have hh := h.isLt; omega⟩ : Fin 16) d := by
    funext a
    match a with
    | ⟨0, _⟩ => rfl
    | ⟨1, _⟩ => rfl
    | ⟨2, _⟩ => rfl
  rw [e14, split_idx s b h d (idx_main_v13 (ix3 s (⟨8 * b.val + h.val, by have hb := b.isLt; have hh := h.isLt; omega⟩ : Fin 16) d)) rfl rfl rfl,
    v6_at]
  rfl

/-! ## Scores, row maxima, exponentials, row sums, weights -/

/-- Slice 8 b + h of the reference's scores is the layer's score in head (b, h). -/
theorem v15_at (b : Fin 2) (h : Fin 8) (s t : Fin 2048) :
    val_main_v15 (F := Ideal) x w bi (ix3 (⟨8 * b.val + h.val, by have hb := b.isLt; have hh := h.isLt; omega⟩ : Fin 16) s t) = score (headsQ x w bi) (headsK x w bi) b h s t := by
  rw [val_main_v15_apply]
  unfold score
  refine Finset.sum_congr rfl fun k _ => ?_
  have el : lidx_main_v15 (ix3 (⟨8 * b.val + h.val, by have hb := b.isLt; have hh := h.isLt; omega⟩ : Fin 16) s t) k = ix3 (⟨8 * b.val + h.val, by have hb := b.isLt; have hh := h.isLt; omega⟩ : Fin 16) s k := by
    funext a
    match a with
    | ⟨0, _⟩ => rfl
    | ⟨1, _⟩ => rfl
    | ⟨2, _⟩ => rfl
  have er : ridx_main_v15 (ix3 (⟨8 * b.val + h.val, by have hb := b.isLt; have hh := h.isLt; omega⟩ : Fin 16) s t) k = ix3 (⟨8 * b.val + h.val, by have hb := b.isLt; have hh := h.isLt; omega⟩ : Fin 16) t k := by
    funext a
    match a with
    | ⟨0, _⟩ => rfl
    | ⟨1, _⟩ => rfl
    | ⟨2, _⟩ => rfl
  rw [el, er, v10_at, v12_at]

/-- The reduced index (bh, s) with coordinate t put back on the last axis is (bh, s, t). -/
theorem lift_last (hR : S16x2048x2048.Reduces [2] S16x2048) (bh : Fin 16) (s : Fin 2048)
    (t : Fin (S16x2048x2048.size 2)) :
    hR.lift (ix2 bh s) t = ix3 bh s (⟨t.val, t.isLt⟩ : Fin 2048) := by
  funext c
  match c with
  | ⟨0, _⟩ => exact Fin.ext rfl
  | ⟨1, _⟩ => exact Fin.ext rfl
  | ⟨2, _⟩ => exact Fin.ext rfl

/-- The reference's row maximum, a maximum with −∞ of a fold of maxima from −∞, is the layer's. -/
theorem v18_at (b : Fin 2) (h : Fin 8) (s : Fin 2048) :
    val_main_v18 (F := Ideal) x w bi (ix2 (⟨8 * b.val + h.val, by have hb := b.isLt; have hh := h.isLt; omega⟩ : Fin 16) s) = rowMax (headsQ x w bi) (headsK x w bi) b h s := by
  have hv : ∀ t : Fin 2048, val_main_v15 (F := Ideal) x w bi (ix3 (⟨8 * b.val + h.val, by have hb := b.isLt; have hh := h.isLt; omega⟩ : Fin 16) s t) = score (headsQ x w bi) (headsK x w bi) b h s t :=
    fun t => v15_at x w bi b h s t
  have hR : S16x2048x2048.Reduces [2] S16x2048 := by decide
  rw [val_main_v18_apply, val_main_v17_apply, val_main_cst_1_apply]
  unfold val_main_v16
  generalize val_main_v15 (F := Ideal) x w bi = y at hv ⊢
  have key := Host.reduce_eq_fold_single (FloatOps.maximumf (F := Ideal) (φ := .f32)) (y : S16x2048x2048.Idx → Ideal .f32)
    (val_main_cst_0 (F := Ideal)) Gen.reducesTo_S16x2048x2048_S16x2048_d2 hR Gen.h_S_ (ix2 (⟨8 * b.val + h.val, by have hb := b.isLt; have hh := h.isLt; omega⟩ : Fin 16) s)
  refine (congrArg (max negInf) key).trans ?_
  have hf : (y ∘ hR.lift (ix2 (⟨8 * b.val + h.val, by have hb := b.isLt; have hh := h.isLt; omega⟩ : Fin 16) s)) = fun t : Fin 2048 => score (headsQ x w bi) (headsK x w bi) b h s t :=
    funext fun t => by
      show y (hR.lift (ix2 (⟨8 * b.val + h.val, by have hb := b.isLt; have hh := h.isLt; omega⟩ : Fin 16) s) t) = _
      rw [lift_last hR]
      exact hv _
  unfold rowMax
  show max negInf (Finset.fold max negInf (y ∘ hR.lift (ix2 (⟨8 * b.val + h.val, by have hb := b.isLt; have hh := h.isLt; omega⟩ : Fin 16) s)) Finset.univ)
    = Finset.fold max negInf (fun t => score (headsQ x w bi) (headsK x w bi) b h s t) Finset.univ
  rw [hf]
  exact max_eq_right ((Finset.le_fold_max _).mpr (Or.inl le_rfl))

/-- The reference's exponentials are the layer's. -/
theorem v22_at (b : Fin 2) (h : Fin 8) (s t : Fin 2048) :
    val_main_v22 (F := Ideal) x w bi (ix3 (⟨8 * b.val + h.val, by have hb := b.isLt; have hh := h.isLt; omega⟩ : Fin 16) s t) = expo (headsQ x w bi) (headsK x w bi) b h s t := by
  rw [val_main_v22_apply, val_main_v21_apply, val_main_v20_apply, val_main_v19_apply]
  have e : idx_main_v19 (idx_main_v20 (ix3 (⟨8 * b.val + h.val, by have hb := b.isLt; have hh := h.isLt; omega⟩ : Fin 16) s t)) = ix2 (⟨8 * b.val + h.val, by have hb := b.isLt; have hh := h.isLt; omega⟩ : Fin 16) s := by
    funext a
    match a with
    | ⟨0, _⟩ => rfl
    | ⟨1, _⟩ => rfl
  rw [e, v18_at, v15_at]
  rfl

/-- The reference's row sums, added up from zero, are the layer's. -/
theorem v23_at (b : Fin 2) (h : Fin 8) (s : Fin 2048) :
    val_main_v23 (F := Ideal) x w bi (ix2 (⟨8 * b.val + h.val, by have hb := b.isLt; have hh := h.isLt; omega⟩ : Fin 16) s) = denom (headsQ x w bi) (headsK x w bi) b h s := by
  rw [val_main_v23_apply, val_main_cst_2_apply, Ideal.ofBits_def, Ideal.ofBits_zero_f32, zero_add]
  unfold denom
  refine Finset.sum_congr rfl fun k _ => ?_
  have e : idx_main_v23 (ix2 (⟨8 * b.val + h.val, by have hb := b.isLt; have hh := h.isLt; omega⟩ : Fin 16) s) k = ix3 (⟨8 * b.val + h.val, by have hb := b.isLt; have hh := h.isLt; omega⟩ : Fin 16) s k := by
    funext a
    match a with
    | ⟨0, _⟩ => rfl
    | ⟨1, _⟩ => rfl
    | ⟨2, _⟩ => rfl
  rw [e, v22_at]

/-- The reference's softmax weights are the layer's. -/
theorem v26_at (b : Fin 2) (h : Fin 8) (s t : Fin 2048) :
    val_main_v26 (F := Ideal) x w bi (ix3 (⟨8 * b.val + h.val, by have hb := b.isLt; have hh := h.isLt; omega⟩ : Fin 16) s t) = prob (headsQ x w bi) (headsK x w bi) b h s t := by
  rw [val_main_v26_apply, val_main_v25_apply, val_main_v24_apply]
  have e : idx_main_v24 (idx_main_v25 (ix3 (⟨8 * b.val + h.val, by have hb := b.isLt; have hh := h.isLt; omega⟩ : Fin 16) s t)) = ix2 (⟨8 * b.val + h.val, by have hb := b.isLt; have hh := h.isLt; omega⟩ : Fin 16) s := by
    funext a
    match a with
    | ⟨0, _⟩ => rfl
    | ⟨1, _⟩ => rfl
  rw [e, v23_at, v22_at]
  rfl

/-! ## The two facts the later stages are built on -/

theorem ref_prob (x : (⟨S2048x2x512, .f32⟩ : BufTy).Contents (Elt Ideal)) (w : (⟨S1536x512, .f32⟩ : BufTy).Contents (Elt Ideal))
    (b : (⟨S1536, .f32⟩ : BufTy).Contents (Elt Ideal)) (bq : Fin 2) (h : Fin 8) (s t : Fin 2048) :
    Cert.ReferenceIdeal.Read.val_main_v26 (F := Ideal) x w b (ix3 ⟨8 * bq.val + h.val, by have := bq.isLt; have := h.isLt; omega⟩ s t)
      = Cert.Attn.prob (Cert.Attn.headsQ x w b) (Cert.Attn.headsK x w b) bq h s t :=
  v26_at x w b bq h s t

theorem ref_v (x : (⟨S2048x2x512, .f32⟩ : BufTy).Contents (Elt Ideal)) (w : (⟨S1536x512, .f32⟩ : BufTy).Contents (Elt Ideal))
    (b : (⟨S1536, .f32⟩ : BufTy).Contents (Elt Ideal)) (bq : Fin 2) (h : Fin 8) (t : Fin 2048) (d : Fin 64) :
    Cert.ReferenceIdeal.Read.val_main_v14 (F := Ideal) x w b (ix3 ⟨8 * bq.val + h.val, by have := bq.isLt; have := h.isLt; omega⟩ t d)
      = Cert.Attn.headsV x w b (ix4 bq h t d) :=
  v14_at x w b bq h t d

end Cert.ReferenceIdeal.Bridge

end
-- ==== Proof.Consts.lean ====
/-
  The float constants the two programs spell, as the extended reals their patterns denote: 8, 1/8 and −∞.
  Stated once here; the other modules cite these and unfold no pattern themselves.
-/
import Idealize.ShloMosaic.PureOps.Ideal

noncomputable section

namespace Cert.Consts

open Idealize.ShloMosaic

/-- The pattern of 8.0 denotes the real 8. -/
theorem ofBits_eight : Ideal.ofBits .f32 0x41000000#32 = ((8 : ℝ) : EReal) := by
  simp [Ideal.ofBits, Ideal.ieee, -EReal.coe_mul]; norm_num

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern 0xFF800000 denotes −∞. -/
theorem ofBits_negInf : Ideal.ofBits .f32 0xFF800000#32 = (⊥ : EReal) := by
  simp [Ideal.ofBits, Ideal.ieee]

/-- Dividing by the pattern of 8 is multiplying by the pattern of 1/8, on every extended real. -/
theorem div_eight (x : EReal) : Ideal.div x (Ideal.ofBits .f32 0x41000000#32) = x * Ideal.ofBits .f32 0x3E000000#32 := by
  rw [ofBits_eight, ofBits_eighth]
  exact Ideal.div_coe (by norm_num : (8 : ℝ) ≠ 0) x

/-- The larger of −∞ (as spelt) and y is y. -/
theorem max_negInf (y : EReal) : max (Ideal.ofBits .f32 0xFF800000#32) y = y := by
  rw [ofBits_negInf]; exact max_eq_right bot_le

end Cert.Consts

end
-- ==== Proof.RefBridge.lean ====
/-
  The reference's last stages as the layer's two whole-array functions.

  Given the reference's softmax weights at head 8·bq + h as `prob` of the queries and keys read as heads, and its values
  at that head as the values read as heads (the two facts about its earlier stages), the remaining stages are:
    * per head, the weights against the values, summed over the keys: `attnOut`;
    * the heads' outputs transposed to (s, head, d) and regrouped as (s, bb, 512): row (s, bb), column e is head
      8·bb + e / 64 at coordinate e % 64, which is `fromHeads` at row 2s + bb;
    * that array against the output weight, contracted over the weight's second axis (the transposed weight), plus
      the bias: `outProj` at row 2s + bb, so the result is `layerOut`;
    * the weights regrouped as (bq, h, s, t), summed over h from zero and divided by 8: dividing by 8 is multiplying by
      1/8 on the extended reals, and a sum from zero in the order 0, …, 7 is `attnW`'s, so the result is `layerW`.
-/
import proofs.«164037_j40080634806734_2_alg».proof.Proof.Gen.ReferenceIdeal.Read
import proofs.«164037_j40080634806734_2_alg».proof.Proof.Composite
import proofs.«164037_j40080634806734_2_alg».proof.Proof.Consts
import Idealize.ShloMosaic.Lib.ValueIdx
import Idealize.ShloMosaic.PureOps.Ideal.Laws

noncomputable section

namespace Cert.ReferenceIdeal.Bridge

open Cert.ReferenceIdeal Cert.ReferenceIdeal.Gen Cert.ReferenceIdeal.Read Cert.Attn Idealize.ShloMosaic Idealize.ShloMosaic.TcCoe Idealize.SL.Sem Idealize.ShloMosaic.ValueIdx

namespace Top

/-! ## The averaged weights -/

/-- The reference's sum over the heads at (bq, s, t): from zero, the eight heads' softmax weights. -/
theorem ref_headsum (ref_prob : ∀ (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (h : Fin 8) (s t : Fin 2048), Cert.ReferenceIdeal.Read.val_main_v26 (F := Ideal) x w b (ix3 ⟨8 * bq.val + h.val, by have := bq.isLt; have := h.isLt; omega⟩ s t) = Cert.Attn.prob (Cert.Attn.headsQ x w b) (Cert.Attn.headsK x w b) bq h s t) (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (s t : Fin 2048) :
    val_main_v35 (F := Ideal) x w b (ix3 bq s t)
      = Ideal.ofBits .f32 0x00000000#32 + ∑ h : Fin 8, prob (headsQ x w b) (headsK x w b) bq h s t := by
  rw [val_main_v35_apply]
  refine congrArg₂ (· + ·) rfl (Finset.sum_congr rfl fun h _ => ?_)
  rw [val_main_v34_apply]
  refine (congrArg (val_main_v26 (F := Ideal) x w b) (funext fun a => Fin.ext ?_)).trans (ref_prob x w b bq h s t)
  have hb : bq.val < 2 := bq.isLt
  have hh : h.val < 8 := h.isLt
  have hs : s.val < 2048 := s.isLt
  have ht : t.val < 2048 := t.isLt
  match a with
  | ⟨0, _⟩ => show (((bq.val * 8 + h.val) * 2048 + s.val) * 2048 + t.val) / 4194304 = 8 * bq.val + h.val; omega
  | ⟨1, _⟩ => show (((bq.val * 8 + h.val) * 2048 + s.val) * 2048 + t.val) / 2048 % 2048 = s.val; omega
  | ⟨2, _⟩ => show (((bq.val * 8 + h.val) * 2048 + s.val) * 2048 + t.val) % 2048 = t.val; omega

/-- The layer's averaged weights are the reference's, given the reference's softmax weights. -/
theorem layerW_eq_ref_of (ref_prob : ∀ (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (h : Fin 8) (s t : Fin 2048), Cert.ReferenceIdeal.Read.val_main_v26 (F := Ideal) x w b (ix3 ⟨8 * bq.val + h.val, by have := bq.isLt; have := h.isLt; omega⟩ s t) = Cert.Attn.prob (Cert.Attn.headsQ x w b) (Cert.Attn.headsK x w b) bq h s t) (x : (⟨S2048x2x512, .f32⟩ : BufTy).Contents (Elt Ideal)) (w : (⟨S1536x512, .f32⟩ : BufTy).Contents (Elt Ideal)) (b : (⟨S1536, .f32⟩ : BufTy).Contents (Elt Ideal)) : Cert.Attn.layerW x w b = Cert.ReferenceIdeal.Read.val_main_v37 (F := Ideal) x w b := by
  funext i
  obtain ⟨bq, s, t, rfl⟩ : ∃ (bq : Fin 2) (s t : Fin 2048), i = ix3 bq s t := ⟨i 0, i 1, i 2, eq_ix3 i⟩
  rw [val_main_v37_apply, ref_headsum ref_prob, val_main_v36_apply, val_main_cst_4_apply]
  show attnW (headsQ x w b) (headsK x w b) (ix3 bq s t) = Ideal.div _ (Ideal.ofBits .f32 0x41000000#32)
  rw [Cert.Consts.div_eight, Ideal.ofBits_zero_f32, zero_add, Fin.sum_univ_eight]
  generalize headsQ x w b = Q
  generalize headsK x w b = K
  unfold attnW
  rw [zero_add]

/-! ## The layer's output -/

/-- The reference's heads' outputs at head 8·bq + h: the softmax-weighted sum of that head's values. -/
theorem ref_attn (ref_prob : ∀ (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (h : Fin 8) (s t : Fin 2048), Cert.ReferenceIdeal.Read.val_main_v26 (F := Ideal) x w b (ix3 ⟨8 * bq.val + h.val, by have := bq.isLt; have := h.isLt; omega⟩ s t) = Cert.Attn.prob (Cert.Attn.headsQ x w b) (Cert.Attn.headsK x w b) bq h s t) (ref_v : ∀ (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (h : Fin 8) (t : Fin 2048) (d : Fin 64), Cert.ReferenceIdeal.Read.val_main_v14 (F := Ideal) x w b (ix3 ⟨8 * bq.val + h.val, by have := bq.isLt; have := h.isLt; omega⟩ t d) = Cert.Attn.headsV x w b (ix4 bq h t d)) (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (h : Fin 8) (s : Fin 2048) (d : Fin 64) :
    val_main_v27 (F := Ideal) x w b (ix3 ⟨8 * bq.val + h.val, by have := bq.isLt; have := h.isLt; omega⟩ s d)
      = attnOut (headsQ x w b) (headsK x w b) (headsV x w b) (ix4 bq h s d) := by
  rw [val_main_v27_apply]
  show _ = ∑ t : Fin 2048, prob (headsQ x w b) (headsK x w b) bq h s t * headsV x w b (ix4 bq h t d)
  refine Finset.sum_congr rfl fun t _ => congrArg₂ (· * ·) ?_ ?_
  · refine (congrArg (val_main_v26 (F := Ideal) x w b) (funext fun a => Fin.ext ?_)).trans (ref_prob x w b bq h s t)
    match a with
    | ⟨0, _⟩ => rfl
    | ⟨1, _⟩ => rfl
    | ⟨2, _⟩ => rfl
  · refine (congrArg (val_main_v14 (F := Ideal) x w b) (funext fun a => Fin.ext ?_)).trans (ref_v x w b bq h t d)
    match a with
    | ⟨0, _⟩ => rfl
    | ⟨1, _⟩ => rfl
    | ⟨2, _⟩ => rfl

/-- The reference's heads' outputs laid out as rows (s, bb) and 512 columns: column e is head e / 64, coordinate e % 64. -/
theorem ref_rows (ref_prob : ∀ (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (h : Fin 8) (s t : Fin 2048), Cert.ReferenceIdeal.Read.val_main_v26 (F := Ideal) x w b (ix3 ⟨8 * bq.val + h.val, by have := bq.isLt; have := h.isLt; omega⟩ s t) = Cert.Attn.prob (Cert.Attn.headsQ x w b) (Cert.Attn.headsK x w b) bq h s t) (ref_v : ∀ (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (h : Fin 8) (t : Fin 2048) (d : Fin 64), Cert.ReferenceIdeal.Read.val_main_v14 (F := Ideal) x w b (ix3 ⟨8 * bq.val + h.val, by have := bq.isLt; have := h.isLt; omega⟩ t d) = Cert.Attn.headsV x w b (ix4 bq h t d)) (x : (⟨S2048x2x512, .f32⟩ : BufTy).Contents (Elt Ideal)) (w : (⟨S1536x512, .f32⟩ : BufTy).Contents (Elt Ideal)) (b : (⟨S1536, .f32⟩ : BufTy).Contents (Elt Ideal)) (s : Fin 2048) (bb : Fin 2) (e : Fin 512) :
    val_main_v29 (F := Ideal) x w b (ix3 s bb e)
      = fromHeads (attnOut (headsQ x w b) (headsK x w b) (headsV x w b)) (ix2 ⟨2 * s.val + bb.val, by have := s.isLt; have := bb.isLt; omega⟩ e) := by
  have hs : s.val < 2048 := s.isLt
  have hb : bb.val < 2 := bb.isLt
  have he : e.val < 512 := e.isLt
  rw [val_main_v29_apply, val_main_v28_apply]
  refine (congrArg (val_main_v27 (F := Ideal) x w b) (funext fun a => Fin.ext ?_)).trans
    ((ref_attn ref_prob ref_v x w b bb ⟨e.val / 64, by omega⟩ s ⟨e.val % 64, by omega⟩).trans ?_)
  · match a with
    | ⟨0, _⟩ => show ((s.val * 2 + bb.val) * 512 + e.val) / 64 % 16 = 8 * bb.val + e.val / 64; omega
    | ⟨1, _⟩ => show ((s.val * 2 + bb.val) * 512 + e.val) / 1024 = s.val; omega
    | ⟨2, _⟩ => show ((s.val * 2 + bb.val) * 512 + e.val) % 64 = e.val % 64; omega
  · generalize attnOut (headsQ x w b) (headsK x w b) (headsV x w b) = A
    unfold fromHeads
    refine congrArg A (funext fun a => Fin.ext ?_)
    match a with
    | ⟨0, _⟩ => show bb.val = (2 * s.val + bb.val) % 2; omega
    | ⟨1, _⟩ => show e.val / 64 = e.val / 64; rfl
    | ⟨2, _⟩ => show s.val = (2 * s.val + bb.val) / 2; omega
    | ⟨3, _⟩ => show e.val % 64 = e.val % 64; rfl

/-- The layer's output is the reference's, given the reference's softmax weights and values. -/
theorem layerOut_eq_ref_of (ref_prob : ∀ (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (h : Fin 8) (s t : Fin 2048), Cert.ReferenceIdeal.Read.val_main_v26 (F := Ideal) x w b (ix3 ⟨8 * bq.val + h.val, by have := bq.isLt; have := h.isLt; omega⟩ s t) = Cert.Attn.prob (Cert.Attn.headsQ x w b) (Cert.Attn.headsK x w b) bq h s t) (ref_v : ∀ (x : (⟨S2048x2x512, .f32⟩ : BufTy).Contents (Elt Ideal)) (w : (⟨S1536x512, .f32⟩ : BufTy).Contents (Elt Ideal)) (b : (⟨S1536, .f32⟩ : BufTy).Contents (Elt Ideal)) (bq : Fin 2) (h : Fin 8) (t : Fin 2048) (d : Fin 64), Cert.ReferenceIdeal.Read.val_main_v14 (F := Ideal) x w b (ix3 ⟨8 * bq.val + h.val, by have := bq.isLt; have := h.isLt; omega⟩ t d) = Cert.Attn.headsV x w b (ix4 bq h t d)) (x : (⟨S2048x2x512, .f32⟩ : BufTy).Contents (Elt Ideal)) (w : (⟨S1536x512, .f32⟩ : BufTy).Contents (Elt Ideal)) (b : (⟨S1536, .f32⟩ : BufTy).Contents (Elt Ideal)) (wo : (⟨S512x512, .f32⟩ : BufTy).Contents (Elt Ideal)) (bo : (⟨S512, .f32⟩ : BufTy).Contents (Elt Ideal)) :
    Cert.Attn.layerOut x w b wo bo = Cert.ReferenceIdeal.Read.val_main_v33 (F := Ideal) x w b wo bo := by
  funext i
  obtain ⟨s, bb, f, rfl⟩ : ∃ (s : Fin 2048) (bb : Fin 2) (f : Fin 512), i = ix3 s bb f := ⟨i 0, i 1, i 2, eq_ix3 i⟩
  rw [val_main_v33_apply, val_main_v30_apply, val_main_v32_apply, val_main_v31_apply]
  show outProj (fromHeads (attnOut (headsQ x w b) (headsK x w b) (headsV x w b))) (transOut wo) bo
      (ix2 ⟨2 * s.val + bb.val, by have := s.isLt; have := bb.isLt; omega⟩ f) = _ + _
  unfold outProj
  refine congrArg₂ (· + ·) (Finset.sum_congr rfl fun k _ => congrArg₂ (· * ·) ?_ ?_) ?_
  · refine Eq.trans ?_ ((ref_rows ref_prob ref_v x w b s bb k).symm.trans (congrArg (val_main_v29 (F := Ideal) x w b) (funext fun a => Fin.ext ?_)))
    · rfl
    · match a with
      | ⟨0, _⟩ => rfl
      | ⟨1, _⟩ => rfl
      | ⟨2, _⟩ => rfl
  · unfold transOut
    refine congrArg wo (funext fun a => Fin.ext ?_)
    match a with
    | ⟨0, _⟩ => rfl
    | ⟨1, _⟩ => rfl
  · refine congrArg bo (funext fun a => Fin.ext ?_)
    match a with
    | ⟨0, _⟩ => rfl

end Top

end Cert.ReferenceIdeal.Bridge

end
-- ==== Proof.Claims.lean ====
/-
  The five claims.  The kernel program runs the three regions with re-layouts between them, and its two results are
  the layer's functions of the argument arrays (the regions' whole-array functions composed); the reference computes
  the same two functions with its own arrangement (one batched product over 16 batch·head slabs, a softmax, a mean over
  the heads as a sum divided by 8).  Index by index over the extended reals the two agree: the products and sums are
  the same sums, the softmaxes the same quotients, and a division by 8 is the product with 1/8.  No finiteness of
  the inputs is used.
-/
import proofs.«164037_j40080634806734_2_alg».proof.Defs
import proofs.«164037_j40080634806734_2_alg».proof.Proof.Gen.Kernel
import proofs.«164037_j40080634806734_2_alg».proof.Proof.Gen.KernelIdeal
import proofs.«164037_j40080634806734_2_alg».proof.Proof.Gen.ReferenceIdeal
import proofs.«164037_j40080634806734_2_alg».proof.Proof.Gen.Pre_finite_inputs
import proofs.«164037_j40080634806734_2_alg».proof.Proof.Gen.Kernel.Frame
import proofs.«164037_j40080634806734_2_alg».proof.Proof.Gen.KernelIdeal.Frame
import proofs.«164037_j40080634806734_2_alg».proof.Proof.Gen.ReferenceIdeal.Run
import proofs.«164037_j40080634806734_2_alg».proof.Proof.Gen.ReferenceIdeal.Read
import proofs.«164037_j40080634806734_2_alg».proof.Proof.KernelValue
import proofs.«164037_j40080634806734_2_alg».proof.Proof.RefBridgeA
import proofs.«164037_j40080634806734_2_alg».proof.Proof.RefBridge

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the layer's output and averaged weights of the (agreeing) argument arrays. -/
theorem algebraic : Cert.algebraic_KernelIdeal_ReferenceIdeal := by
  intro m ρ m' ρ' _ hagree
  refine ⟨fun c => Cert.Attn.layerOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      fun c => Cert.Attn.layerW (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)), ?_, ?_⟩
  · exact (θ_run Cert.KernelIdeal.defs _ _).mono (fun r h c =>
      ⟨(h c).1.trans (Cert.KernelIdeal.Bridge.kernel_out m ρ c), (h c).2.1.trans (Cert.KernelIdeal.Bridge.kernel_w m ρ c), (h c).2.2⟩)
      (Cert.KernelIdeal.Bridge.run_values m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v33_eq, (hagree c).1, (hagree c).2.1, (hagree c).2.2.1, (hagree c).2.2.2.1, (hagree c).2.2.2.2]
      exact (Cert.ReferenceIdeal.Bridge.Top.layerOut_eq_ref_of Cert.ReferenceIdeal.Bridge.ref_prob Cert.ReferenceIdeal.Bridge.ref_v _ _ _ _ _).symm
    · rw [(h c).2.1, Cert.ReferenceIdeal.Read.val_main_v37_eq, (hagree c).1, (hagree c).2.1, (hagree c).2.2.1]
      exact (Cert.ReferenceIdeal.Bridge.Top.layerW_eq_ref_of Cert.ReferenceIdeal.Bridge.ref_prob _ _ _).symm

end Cert.Proof.Claims

end
-- ==== Proof.lean ====
/- The proof of `Cert.Claim`: a multi-head self-attention layer computed by three kernels (the input projection, the
   attention of every batch and head with the heads' weights averaged, the output projection) against the same layer
   written with whole-array products, a softmax and a mean.

   The three frames: the two kernel programs' generated frames, and the reference's run with its results dropped.
   `preserves` is trivial (the idealization rewrote nothing).  `algebraic`: both idealized programs end, at the two
   results, with ONE pair of functions of the argument arrays (Proof/Composite.lean: `layerOut`, `layerW`) — the kernel
   program by reading each region's blocks back into whole-array functions (Proof/Region0.lean, Region1.lean,
   Region2.lean over Proof/Spec.lean) and the host re-layouts between them (Proof/HostChain.lean, KernelValue.lean),
   the reference by reading its operations index by index (Proof/RefBridgeA.lean, RefBridge.lean); Proof/Claims.lean
   puts the claims together behind the witnesses of the programs' stated facts (the generated Proof/Gen/ instances). -/
import proofs.«164037_j40080634806734_2_alg».proof.Defs
import proofs.«164037_j40080634806734_2_alg».proof.Proof.Gen.Kernel
import proofs.«164037_j40080634806734_2_alg».proof.Proof.Gen.Kernel.Skeleton
import proofs.«164037_j40080634806734_2_alg».proof.Proof.Gen.Kernel.Launch
import proofs.«164037_j40080634806734_2_alg».proof.Proof.Gen.Kernel.Points
import proofs.«164037_j40080634806734_2_alg».proof.Proof.Gen.Kernel.Frame
import proofs.«164037_j40080634806734_2_alg».proof.Proof.Gen.KernelIdeal
import proofs.«164037_j40080634806734_2_alg».proof.Proof.Gen.KernelIdeal.Skeleton
import proofs.«164037_j40080634806734_2_alg».proof.Proof.Gen.KernelIdeal.Launch
import proofs.«164037_j40080634806734_2_alg».proof.Proof.Gen.KernelIdeal.Points
import proofs.«164037_j40080634806734_2_alg».proof.Proof.Gen.KernelIdeal.Frame
import proofs.«164037_j40080634806734_2_alg».proof.Proof.Gen.ReferenceIdeal
import proofs.«164037_j40080634806734_2_alg».proof.Proof.Gen.ReferenceIdeal.Run
import proofs.«164037_j40080634806734_2_alg».proof.Proof.Gen.ReferenceIdeal.Read
import proofs.«164037_j40080634806734_2_alg».proof.Proof.Gen.Pre_finite_inputs
import proofs.«164037_j40080634806734_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
